-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S96x128 : Shape := ⟨2, ![96, 128]⟩
abbrev S96 : Shape := ⟨1, ![96]⟩
abbrev S96x96 : Shape := ⟨2, ![96, 96]⟩
abbrev S64x96 : Shape := ⟨2, ![64, 96]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x128 : S_.BroadcastsInDim S96x128 (![] : Fin 0 → Fin S96x128.rank)
  reducesTo_S96x128_S_d0_1 : S96x128.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S96 .f32) (main_arg16 : FVec F S96 .f32) (main_v63 : IVec S_ 1) (main_v67 : IVec S_ 1) : IVec S_ 1 :=
  let main_v68 : IVec S_ 1 := andi main_v63 main_v67
  let main_v69 : FVec F S96 .f32 := Host.absf main_arg15
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S96 .f32 := Host.absf main_arg16
  let main_cst_28 : FVec F S_ .f32 := constant S_ .f32 0x7F800000#32
  let main_v75 : FVec F S96 .f32 := broadcastInDim S96 ![] bcast_S_S96 main_cst_28
  let main_v76 : IVec S96 1 := cmpf .olt main_v74 main_v75
  let main_c_29 : IVec S_ 1 := constantI S_ 1 1#1
  let main_v77 : IVec S_ 1 := (fun x v => Host.reduce IntOp.andi x v reducesTo_S96_S_d0 h_S_) main_v76 main_c_29
  let main_v78 : IVec S_ 1 := andi main_v73 main_v77
  main_v78

def fn_part3 {F : FTy → Type} [FloatOps F] (main_arg12 : FVec F S96 .f32) (main_arg13 : FVec F S96 .f32) (main_arg14 : FVec F S96 .f32) (main_arg15 : FVec F S96 .f32) (main_arg16 : FVec F S96 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg15 main_arg16 main_v63 main_v67

def fn_part2 {F : FTy → Type} [FloatOps F] (main_arg8 : FVec F S64 .f32) (main_arg9 : FVec F S96 .f32) (main_arg10 : FVec F S96 .f32) (main_arg11 : FVec F S96 .f32) (main_arg12 : FVec F S96 .f32) (main_arg13 : FVec F S96 .f32) (main_arg14 : FVec F S96 .f32) (main_arg15 : FVec F S96 .f32) (main_arg16 : FVec F S96 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_arg12 main_arg13 main_arg14 main_arg15 main_arg16 main_v48 main_v49 main_v50

def fn_part1 {F : FTy → Type} [FloatOps F] (main_arg5 : FVec F S96x96 .f32) (main_arg6 : FVec F S96 .f32) (main_arg7 : FVec F S64x96 .f32) (main_arg8 : FVec F S64 .f32) (main_arg9 : FVec F S96 .f32) (main_arg10 : FVec F S96 .f32) (main_arg11 : FVec F S96 .f32) (main_arg12 : FVec F S96 .f32) (main_arg13 : FVec F S96 .f32) (main_arg14 : FVec F S96 .f32) (main_arg15 : FVec F S96 .f32) (main_arg16 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S64x96 .f32 := Host.absf main_arg7
  let main_cst_10 : FVec F S_ .f32 := constant S_ .f32 0x7F800000#32
  let main_v30 : FVec F S64x96 .f32 := broadcastInDim S64x96 ![] bcast_S_S64x96 main_cst_10
  let main_v31 : IVec S64x96 1 := cmpf .olt main_v29 main_v30
  let main_c_11 : IVec S_ 1 := constantI S_ 1 1#1
  let main_v32 : IVec S_ 1 := (fun x v => Host.reduce IntOp.andi x v reducesTo_S64x96_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000 .f32) (main_arg3 : FVec F S96x128 .f32) (main_arg4 : FVec F S96 .f32) (main_arg5 : FVec F S96x96 .f32) (main_arg6 : FVec F S96 .f32) (main_arg7 : FVec F S64x96 .f32) (main_arg8 : FVec F S64 .f32) (main_arg9 : FVec F S96 .f32) (main_arg10 : FVec F S96 .f32) (main_arg11 : FVec F S96 .f32) (main_arg12 : FVec F S96 .f32) (main_arg13 : FVec F S96 .f32) (main_arg14 : FVec F S96 .f32) (main_arg15 : FVec F S96 .f32) (main_arg16 : FVec F S96 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x128 .f32 := Host.absf main_arg3
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S96x128 : Shape := ⟨2, ![96, 128]⟩
abbrev S96 : Shape := ⟨1, ![96]⟩
abbrev S96x96 : Shape := ⟨2, ![96, 96]⟩
abbrev S64x96 : Shape := ⟨2, ![64, 96]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S128x96 : Shape := ⟨2, ![128, 96]⟩
abbrev S850000x96 : Shape := ⟨2, ![850000, 96]⟩
abbrev S1x96 : Shape := ⟨2, ![1, 96]⟩
abbrev S50000x64 : Shape := ⟨2, ![50000, 64]⟩
abbrev S5000x64 : Shape := ⟨2, ![5000, 64]⟩
abbrev S96x64 : Shape := ⟨2, ![96, 64]⟩
abbrev S850000x64 : Shape := ⟨2, ![850000, 64]⟩
abbrev S1x64 : Shape := ⟨2, ![1, 64]⟩

abbrev nBuf : Space → Nat
  | .hbm => 124
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S96x128, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S64x96, .f32⟩
  | .hbm, ⟨8, _⟩ => ⟨S64, .f32⟩
  | .hbm, ⟨9, _⟩ => ⟨S96, .f32⟩
  | .hbm, ⟨10, _⟩ => ⟨S96, .f32⟩
  | .hbm, ⟨11, _⟩ => ⟨S96, .f32⟩
  | .hbm, ⟨12, _⟩ => ⟨S96, .f32⟩
  | .hbm, ⟨13, _⟩ => ⟨S96, .f32⟩
  | .hbm, ⟨14, _⟩ => ⟨S96, .f32⟩
  | .hbm, ⟨15, _⟩ => ⟨S96, .f32⟩
  | .hbm, ⟨16, _⟩ => ⟨S96, .f32⟩
  | .hbm, ⟨17, _⟩ => ⟨S50000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S1x800000, .i32⟩
  | .hbm, ⟨22, _⟩ => ⟨S800000, .i32⟩
  | .hbm, ⟨23, _⟩ => ⟨S850000, .i32⟩
  | .hbm, ⟨24, _⟩ => ⟨S_, .f32⟩
  | .hbm, ⟨25, _⟩ => ⟨S50000, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S50000x96, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x96, .f32⟩
  | .hbm, ⟨70, _⟩ => ⟨S850000x96, .f32⟩
  | .hbm, ⟨71, _⟩ => ⟨S850000x96, .f32⟩
  | .hbm, ⟨72, _⟩ => ⟨S_, .f32⟩
  | .hbm, ⟨73, _⟩ => ⟨S50000x96, .f32⟩
  | .hbm, ⟨74, _⟩ => ⟨S850000x1, .i32⟩
  | .hbm, ⟨75, _⟩ => ⟨S50000x96, .f32⟩
  | .hbm, ⟨76, _⟩ => ⟨S1x96, .f32⟩
  | .hbm, ⟨77, _⟩ => ⟨S1x96, .f32⟩
  | .hbm, ⟨78, _⟩ => ⟨S1x96, .f32⟩
  | .hbm, ⟨79, _⟩ => ⟨S1x96, .f32⟩
  | .hbm, ⟨80, _⟩ => ⟨S1x96, .f32⟩
  | .hbm, ⟨81, _⟩ => ⟨S50000x96, .f32⟩
  | .hbm, ⟨82, _⟩ => ⟨S50000x96, .f32⟩
  | .hbm, ⟨83, _⟩ => ⟨S850000x1, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x96, .f32⟩
  | .hbm, ⟨93, _⟩ => ⟨S850000x96, .f32⟩
  | .hbm, ⟨94, _⟩ => ⟨S850000x96, .f32⟩
  | .hbm, ⟨95, _⟩ => ⟨S_, .f32⟩
  | .hbm, ⟨96, _⟩ => ⟨S50000x96, .f32⟩
  | .hbm, ⟨97, _⟩ => ⟨S850000x1, .i32⟩
  | .hbm, ⟨98, _⟩ => ⟨S50000x96, .f32⟩
  | .hbm, ⟨99, _⟩ => ⟨S1x96, .f32⟩
  | .hbm, ⟨100, _⟩ => ⟨S1x96, .f32⟩
  | .hbm, ⟨101, _⟩ => ⟨S1x96, .f32⟩
  | .hbm, ⟨102, _⟩ => ⟨S1x96, .f32⟩
  | .hbm, ⟨103, _⟩ => ⟨S1x96, .f32⟩
  | .hbm, ⟨104, _⟩ => ⟨S50000x96, .f32⟩
  | .hbm, ⟨105, _⟩ => ⟨S50000x64, .f32⟩
  | .hbm, ⟨106, _⟩ => ⟨S850000x1, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x64, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S96x128, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S1x96, .f32⟩
  | .local _ .vmem, ⟨9, _⟩ => ⟨S1x96, .f32⟩
  | .local _ .vmem, ⟨10, _⟩ => ⟨S1x96, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S64x96, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_12 : Ref sig .tc := ⟨.hbm, 107, rfl⟩
abbrev main_v74 : Ref sig .tc := ⟨.hbm, 108, rfl⟩
abbrev main_v75 : Ref sig .tc := ⟨.hbm, 109, rfl⟩
abbrev main_c_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  transposes_S96x128_p1_0_S128x96 : S96x128.Transposes [1, 0] S128x96
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  inb_S64x96_S64x96_0_0 : ∀ a, (![0, 0] : Fin 2 → Nat) a + S64x96.size a ≤ S64x96.size a
  h_S64x96 : 0 < S64x96.numel
  transposes_S64x96_p1_0_S96x64 : S64x96.Transposes [1, 0] S96x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S50000x96.size a
  hwx3_6 : ∀ i : grid3.Coords, EltTy.bits .f32 = 32 ∨ (Rect.block (s := S50000x96) S5000x96.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x96.size a ≤ S64x96.size a
  hwx4_1 : ∀ i : grid4.Coords, EltTy.bits .f32 = 32 ∨ (Rect.block (s := S64x96) S64x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S5000x96.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v71) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S96x128 : Shape := ⟨2, ![96, 128]⟩
abbrev S96 : Shape := ⟨1, ![96]⟩
abbrev S96x96 : Shape := ⟨2, ![96, 96]⟩
abbrev S64x96 : Shape := ⟨2, ![64, 96]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S128x96 : Shape := ⟨2, ![128, 96]⟩
abbrev S50000x96 : Shape := ⟨2, ![50000, 96]⟩
abbrev S850000x96 : Shape := ⟨2, ![850000, 96]⟩
abbrev S1x96 : Shape := ⟨2, ![1, 96]⟩
abbrev S96x64 : Shape := ⟨2, ![96, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S96x128, .f32⟩
  | 4 => ⟨S96, .f32⟩
  | 5 => ⟨S96x96, .f32⟩
  | 6 => ⟨S96, .f32⟩
  | 7 => ⟨S64x96, .f32⟩
  | 8 => ⟨S64, .f32⟩
  | 9 => ⟨S96, .f32⟩
  | 10 => ⟨S96, .f32⟩
  | 11 => ⟨S96, .f32⟩
  | 12 => ⟨S96, .f32⟩
  | 13 => ⟨S96, .f32⟩
  | 14 => ⟨S96, .f32⟩
  | 15 => ⟨S96, .f32⟩
  | 16 => ⟨S96, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S50000, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S128x96, .f32⟩
  | 60 => ⟨S50000x96, .f32⟩
  | 61 => ⟨S850000x1, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x96, .f32⟩
  | 71 => ⟨S850000x96, .f32⟩
  | 72 => ⟨S850000x96, .f32⟩
  | 73 => ⟨S_, .f32⟩
  | 74 => ⟨S50000x96, .f32⟩
  | 75 => ⟨S850000x1, .i32⟩
  | 76 => ⟨S50000x96, .f32⟩
  | 77 => ⟨S1x96, .f32⟩
  | 78 => ⟨S50000x96, .f32⟩
  | 79 => ⟨S50000x96, .f32⟩
  | 80 => ⟨S1x96, .f32⟩
  | 81 => ⟨S50000x96, .f32⟩
  | 82 => ⟨S50000x96, .f32⟩
  | 83 => ⟨S_, .f32⟩
  | 84 => ⟨S96, .f32⟩
  | 85 => ⟨S96, .f32⟩
  | 86 => ⟨S96, .f32⟩
  | 87 => ⟨S1x96, .f32⟩
  | 88 => ⟨S50000x96, .f32⟩
  | 89 => ⟨S50000x96, .f32⟩
  | 90 => ⟨S1x96, .f32⟩
  | 91 => ⟨S50000x96, .f32⟩
  | 92 => ⟨S50000x96, .f32⟩
  | 93 => ⟨S1x96, .f32⟩
  | 94 => ⟨S50000x96, .f32⟩
  | 95 => ⟨S50000x96, .f32⟩
  | 96 => ⟨S_, .f32⟩
  | 97 => ⟨S50000x96, .f32⟩
  | 98 => ⟨S50000x96, .f32⟩
  | 99 => ⟨S96x96, .f32⟩
  | 100 => ⟨S50000x96, .f32⟩
  | 101 => ⟨S850000x1, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x96, .f32⟩
  | 111 => ⟨S850000x96, .f32⟩
  | 112 => ⟨S850000x96, .f32⟩
  | 113 => ⟨S_, .f32⟩
  | 114 => ⟨S50000x96, .f32⟩
  | 115 => ⟨S850000x1, .i32⟩
  | 116 => ⟨S50000x96, .f32⟩
  | 117 => ⟨S1x96, .f32⟩
  | 118 => ⟨S50000x96, .f32⟩
  | 119 => ⟨S50000x96, .f32⟩
  | 120 => ⟨S1x96, .f32⟩
  | 121 => ⟨S50000x96, .f32⟩
  | 122 => ⟨S50000x96, .f32⟩
  | 123 => ⟨S_, .f32⟩
  | 124 => ⟨S96, .f32⟩
  | 125 => ⟨S96, .f32⟩
  | 126 => ⟨S96, .f32⟩
  | 127 => ⟨S1x96, .f32⟩
  | _ => ⟨S50000x128, .f32⟩

abbrev hbmTy0_1 (i : Nat) : BufTy := match i % 128 with
  | 0 => ⟨S50000x96, .f32⟩
  | 1 => ⟨S50000x96, .f32⟩
  | 2 => ⟨S1x96, .f32⟩
  | 3 => ⟨S50000x96, .f32⟩
  | 4 => ⟨S50000x96, .f32⟩
  | 5 => ⟨S1x96, .f32⟩
  | 6 => ⟨S50000x96, .f32⟩
  | 7 => ⟨S50000x96, .f32⟩
  | 8 => ⟨S_, .f32⟩
  | 9 => ⟨S50000x96, .f32⟩
  | 10 => ⟨S50000x96, .f32⟩
  | 11 => ⟨S96x64, .f32⟩
  | 12 => ⟨S50000x64, .f32⟩
  | 13 => ⟨S850000x1, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x64, .f32⟩
  | 23 => ⟨S850000x64, .f32⟩
  | 24 => ⟨S850000x64, .f32⟩
  | 25 => ⟨S_, .f32⟩
  | 26 => ⟨S50000x64, .f32⟩
  | 27 => ⟨S850000x1, .i32⟩
  | 28 => ⟨S50000x64, .f32⟩
  | 29 => ⟨S1x64, .f32⟩
  | 30 => ⟨S50000x64, .f32⟩
  | 31 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call1_cst : Ref sig .tc := ⟨.hbm, 96, rfl⟩
abbrev main_call1_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_10 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_13 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call2_cst : Ref sig .tc := ⟨.hbm, 136, rfl⟩
abbrev main_call2_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_14 : Ref sig .tc := ⟨.hbm, 142, rfl⟩
abbrev main_v103 : Ref sig .tc := ⟨.hbm, 143, rfl⟩
abbrev main_v104 : Ref sig .tc := ⟨.hbm, 144, rfl⟩
abbrev main_c_15 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_16 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S96x128_S128x96_1_0 : S96x128.Transposes [1, 0] S128x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S96 : S_.BroadcastsInDim S96 (![] : Fin 0 → Fin S96.rank)
  transposes_S96x96_S96x96_1_0 : S96x96.Transposes [1, 0] S96x96
  transposes_S64x96_S96x64_1_0 : S64x96.Transposes [1, 0] S96x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.GcnSpec.lean ====
/-
  The arithmetic of one graph-convolution layer, entry by entry, on the extended reals.

  A layer multiplies the node features by the transpose of a weight matrix, mixes the rows along the edges of the
  graph (a gather, a scaling by the edge's normalised weight, a scatter-add: operations that only move and add rows),
  adds a bias and, in the hidden layers, standardises each column with stored statistics and clamps at zero.  Only the
  two pieces that compute something per entry are named here: the product with a transposed matrix, and the
  standardise-and-clamp of one number.  Both are stated over arbitrary extents.
-/
import Idealize.ShloMosaic.PureOps.Ideal
import Idealize.ShloMosaic.Lib.ValueIdx

noncomputable section

open scoped BigOperators

namespace Cert.Gcn

open Idealize.ShloMosaic Idealize.ShloMosaic.ValueIdx

variable {M K N : Nat}

/-- Entry (p, c) of x times the transpose of w: row p of x against row c of w, summed over the shared axis. -/
def linAt (x : (⟨2, ![M, K]⟩ : Shape).Idx → EReal) (w : (⟨2, ![N, K]⟩ : Shape).Idx → EReal) (p : Fin M) (c : Fin N) : EReal :=
  ∑ k : Fin K, x (ix2 p k) * w (ix2 c k)

/-- The small positive number added to a variance before its reciprocal square root: the single-precision word
    nearest to one hundred-thousandth, read exactly. -/
def eps : EReal := Ideal.ofBits .f32 0x3727C5AC#32

/-- The zero a hidden layer clamps at. -/
def zero : EReal := Ideal.ofBits .f32 0x00000000#32

/-- One aggregated number a, shifted by the bias b, standardised with the stored mean and variance, scaled by g,
    shifted by beta, and clamped from below at zero. -/
def bn (a b g beta mean var : EReal) : EReal :=
  max ((a + b - mean) * Ideal.rsqrt (var + eps) * g + beta) zero

end Cert.Gcn

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.KCarry.lean ====
/-
  Which buffers survive which segment of the idealized kernel program.

  The program alternates stretches of host operations with launches.  A stretch of host operations rewrites the
  buffers its operations write and no other; a launch rewrites its own arrays and no other buffer.  So a buffer that a
  segment neither writes nor stages holds after the segment what it held before it.  For each stretch the buffers it
  writes are listed once; a buffer outside the list is carried across.  Chaining these steps reads an argument array, or
  an array computed once before the first launch (the edge endpoints and the normalised edge weights), at any later
  boundary as what it was when it was made.
-/
import proofs.«136577_j41128606826857_1_alg».proof.Proof.Gen.KernelIdeal.Frame

noncomputable section

namespace Cert.KernelIdeal.Carry

open Cert.KernelIdeal Cert.KernelIdeal.Gen
open Idealize.ShloMosaic Idealize.ShloMosaic.TcCoe Idealize.SL.Sem

variable {F : FTy → Type} [FloatOps F]

/-! ## What each stretch of host operations writes -/

/-- The edge endpoints with the self loops appended, the edge weights with ones appended, the weighted in-degrees. -/
def wr0 : List (Ref sig .tc) := [main_v0, main_v1, main_v2, main_v3, main_v4, main_v5, main_v6, main_cst, main_v7, main_v8, main_cst_0, main_v9, main_v10, main_v11, main_cst_1, main_v12, main_v13, main_v14, main_cst_2]
/-- The guarded reciprocal square root of the degrees. -/
def wr0_1 : List (Ref sig .tc) := [main_call0_v0, main_call0_v1, main_v15]
/-- The normalised weight of every edge. -/
def wr0_2 : List (Ref sig .tc) := [main_c, main_v16, main_v17, main_c_3, main_v18, main_v19, main_v20, main_v21, main_v22, main_v23, main_c_4, main_v24, main_v25, main_c_5, main_v26, main_v27, main_v28, main_v29, main_v30, main_v31]
/-- The first layer's aggregation and its five parameter rows. -/
def wr1 : List (Ref sig .tc) := [main_v33, main_c_6, main_v34, main_v35, main_c_7, main_v36, main_v37, main_v38, main_v39, main_v40, main_v41, main_v42, main_cst_8, main_v43, main_v44, main_v45, main_v46, main_v47, main_v48, main_v49, main_v50]
/-- The second layer's aggregation and its five parameter rows. -/
def wr3 : List (Ref sig .tc) := [main_v53, main_c_9, main_v54, main_v55, main_c_10, main_v56, main_v57, main_v58, main_v59, main_v60, main_v61, main_v62, main_cst_11, main_v63, main_v64, main_v65, main_v66, main_v67, main_v68, main_v69, main_v70]
/-- The third layer's aggregation and its bias row. -/
def wr5 : List (Ref sig .tc) := [main_v73, main_c_12, main_v74, main_v75, main_c_13, main_v76, main_v77, main_v78, main_v79, main_v80, main_v81, main_v82, main_cst_14, main_v83, main_v84, main_v85, main_v86]

theorem wr0_sub : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))
theorem wr0_1_sub : (hostOps0_1 : List (HloOp τ sig (Elt F))).Forall fun op =>
    op.writes ⊆ (wr0_1.map (Proc.devRef (τ := τ) .tc)).toFinset := by
  simp only [hostOps0_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))
theorem wr0_2_sub : (hostOps0_2 : List (HloOp τ sig (Elt F))).Forall fun op =>
    op.writes ⊆ (wr0_2.map (Proc.devRef (τ := τ) .tc)).toFinset := by
  simp only [hostOps0_2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))
theorem wr1_sub : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))
theorem wr3_sub : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))
theorem wr5_sub : (hostOps5 : List (HloOp τ sig (Elt F))).Forall fun op =>
    op.writes ⊆ (wr5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-! ## One step across each segment -/

variable (m : (ℓ : Loc nD τ sig) → Buf (Elt F) ℓ) (ρ : Dev nD → PrngReg) (c : Dev nD)

/-- A buffer made by no host operation before the first launch holds, when that launch is entered, its launch contents. -/
theorem at3_launch (r : Ref sig .tc) (h0 : r ∉ wr0) (h1 : r ∉ wr0_1) (h2 : r ∉ wr0_2) :
    W3 m ρ c (Proc.devRef .tc r) = m ((c : Thread nD τ).loc r) :=
  calc W3 m ρ c (Proc.devRef .tc r)
    _ = W2 m ρ c (Proc.devRef .tc r) := StableHlo.after_of_writes_sub hostOps0_2 _ wr0_2_sub h2
    _ = W1 m ρ c (Proc.devRef .tc r) := StableHlo.after_of_writes_sub hostOps0_1 _ wr0_1_sub h1
    _ = W0 m ρ c (Proc.devRef .tc r) := StableHlo.after_of_writes_sub hostOps0 _ wr0_sub h0
    _ = m ((c : Thread nD τ).loc r) := rfl

/-- Across the first launch. -/
theorem step4 (r : Ref sig .tc) (h : ∀ w, Pipeline.arrRef spec0 w ≠ r) :
    W4 m ρ c (Proc.devRef .tc r) = W3 m ρ c (Proc.devRef .tc r) := W4_of_ne m ρ c r h
/-- Across the first layer's aggregation. -/
theorem step5 (r : Ref sig .tc) (h : r ∉ wr1) :
    W5 m ρ c (Proc.devRef .tc r) = W4 m ρ c (Proc.devRef .tc r) := StableHlo.after_of_writes_sub hostOps1 _ wr1_sub h
/-- Across the second launch. -/
theorem step6 (r : Ref sig .tc) (h : ∀ w, Pipeline.arrRef spec1 w ≠ r) :
    W6 m ρ c (Proc.devRef .tc r) = W5 m ρ c (Proc.devRef .tc r) := W6_of_ne m ρ c r h
/-- Across the third launch. -/
theorem step7 (r : Ref sig .tc) (h : ∀ w, Pipeline.arrRef spec2 w ≠ r) :
    W7 m ρ c (Proc.devRef .tc r) = W6 m ρ c (Proc.devRef .tc r) := W7_of_ne m ρ c r h
/-- Across the second layer's aggregation. -/
theorem step8 (r : Ref sig .tc) (h : r ∉ wr3) :
    W8 m ρ c (Proc.devRef .tc r) = W7 m ρ c (Proc.devRef .tc r) := StableHlo.after_of_writes_sub hostOps3 _ wr3_sub h
/-- Across the fourth launch. -/
theorem step9 (r : Ref sig .tc) (h : ∀ w, Pipeline.arrRef spec3 w ≠ r) :
    W9 m ρ c (Proc.devRef .tc r) = W8 m ρ c (Proc.devRef .tc r) := W9_of_ne m ρ c r h
/-- Across the fifth launch. -/
theorem step10 (r : Ref sig .tc) (h : ∀ w, Pipeline.arrRef spec4 w ≠ r) :
    W10 m ρ c (Proc.devRef .tc r) = W9 m ρ c (Proc.devRef .tc r) := W10_of_ne m ρ c r h
/-- Across the third layer's aggregation. -/
theorem step11 (r : Ref sig .tc) (h : r ∉ wr5) :
    W11 m ρ c (Proc.devRef .tc r) = W10 m ρ c (Proc.devRef .tc r) := StableHlo.after_of_writes_sub hostOps5 _ wr5_sub h

/-! ## Chains of steps -/

/-- From the second launch's entry back to the first launch's entry. -/
theorem from4 (r : Ref sig .tc) (h4 : ∀ w, Pipeline.arrRef spec0 w ≠ r) :
    W4 m ρ c (Proc.devRef .tc r) = W3 m ρ c (Proc.devRef .tc r) := step4 m ρ c r h4

/-- From the third launch's entry back to the first launch's entry. -/
theorem from6 (r : Ref sig .tc) (h6 : ∀ w, Pipeline.arrRef spec1 w ≠ r) (h5 : r ∉ wr1) (h4 : ∀ w, Pipeline.arrRef spec0 w ≠ r) :
    W6 m ρ c (Proc.devRef .tc r) = W3 m ρ c (Proc.devRef .tc r) :=
  (step6 m ρ c r h6).trans ((step5 m ρ c r h5).trans (step4 m ρ c r h4))

/-- From the second aggregation's entry back to the first launch's entry. -/
theorem from7 (r : Ref sig .tc) (h7 : ∀ w, Pipeline.arrRef spec2 w ≠ r) (h6 : ∀ w, Pipeline.arrRef spec1 w ≠ r) (h5 : r ∉ wr1)
    (h4 : ∀ w, Pipeline.arrRef spec0 w ≠ r) :
    W7 m ρ c (Proc.devRef .tc r) = W3 m ρ c (Proc.devRef .tc r) :=
  (step7 m ρ c r h7).trans (from6 m ρ c r h6 h5 h4)

/-- From the fifth launch's entry back to the first launch's entry. -/
theorem from9 (r : Ref sig .tc) (h9 : ∀ w, Pipeline.arrRef spec3 w ≠ r) (h8 : r ∉ wr3) (h7 : ∀ w, Pipeline.arrRef spec2 w ≠ r)
    (h6 : ∀ w, Pipeline.arrRef spec1 w ≠ r) (h5 : r ∉ wr1) (h4 : ∀ w, Pipeline.arrRef spec0 w ≠ r) :
    W9 m ρ c (Proc.devRef .tc r) = W3 m ρ c (Proc.devRef .tc r) :=
  (step9 m ρ c r h9).trans ((step8 m ρ c r h8).trans (from7 m ρ c r h7 h6 h5 h4))

/-- From the third aggregation's entry back to the first launch's entry. -/
theorem from10 (r : Ref sig .tc) (h10 : ∀ w, Pipeline.arrRef spec4 w ≠ r) (h9 : ∀ w, Pipeline.arrRef spec3 w ≠ r) (h8 : r ∉ wr3)
    (h7 : ∀ w, Pipeline.arrRef spec2 w ≠ r) (h6 : ∀ w, Pipeline.arrRef spec1 w ≠ r) (h5 : r ∉ wr1)
    (h4 : ∀ w, Pipeline.arrRef spec0 w ≠ r) :
    W10 m ρ c (Proc.devRef .tc r) = W3 m ρ c (Proc.devRef .tc r) :=
  (step10 m ρ c r h10).trans (from9 m ρ c r h9 h8 h7 h6 h5 h4)

end Cert.KernelIdeal.Carry

end
-- ==== Proof.KPre.lean ====
/-
  The graph, as both programs see it.

  Before any layer runs, both programs build the same three arrays from the edge list and the edge weights: the source
  node of every edge with one self loop per node appended, the target nodes likewise, and for every edge its weight
  divided by the square roots of the weighted in-degrees of its two endpoints (the reciprocal square root taken as zero
  where the degree is not positive).  The kernel program and the reference build them with the same host operations in
  the same order, so at the boundary where the first launch is entered the kernel program's three buffers hold exactly
  the reference's three stages of the same arguments.  The chain is read one stretch of host operations at a time: the
  endpoints, the weights with the self loops' ones appended and the degree facts after the first stretch; the guarded
  reciprocal square root after the second; the normalised weights after the third.
-/
import proofs.«136577_j41128606826857_1_alg».proof.Proof.Gen.KernelIdeal.Frame
import proofs.«136577_j41128606826857_1_alg».proof.Proof.Gen.ReferenceIdeal.Read
import proofs.«136577_j41128606826857_1_alg».proof.Proof.KCarry

noncomputable section

namespace Cert.KernelIdeal.Layers

open Cert.KernelIdeal Cert.KernelIdeal.Gen Cert.KernelIdeal.Carry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the first stretch -/

/-- The source node of every edge, the self loops appended. -/
theorem row_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The target node of every edge, the self loops appended. -/
theorem col_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

/-- The edge weights, a one appended for every self loop. -/
theorem ew_at1 : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  after_results
  rfl

/-- Where the weighted in-degree is positive. -/
theorem degpos_at1 : W1 m ρ c (Proc.devRef .tc main_v13) = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  after_results
  rfl

/-- The reciprocal square root of the weighted in-degree. -/
theorem degrs_at1 : W1 m ρ c (Proc.devRef .tc main_v14) = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results
  rfl

/-- The zero that replaces the reciprocal square root where the degree is not positive. -/
theorem zero_at1 : W1 m ρ c (Proc.devRef .tc main_cst_2) = Cert.ReferenceIdeal.Read.val_main_cst_2 (F := Ideal) := by
  show StableHlo.after hostOps0 (W0 m ρ c) (Proc.devRef .tc main_cst_2) = _
  after_results
  rfl

/-! ## After the second stretch -/

/-- Across the second stretch. -/
theorem step2 (r : Ref sig .tc) (h : r ∉ wr0_1) : W2 m ρ c (Proc.devRef .tc r) = W1 m ρ c (Proc.devRef .tc r) :=
  StableHlo.after_of_writes_sub hostOps0_1 _ wr0_1_sub h

/-- Across the third stretch. -/
theorem step3 (r : Ref sig .tc) (h : r ∉ wr0_2) : W3 m ρ c (Proc.devRef .tc r) = W2 m ρ c (Proc.devRef .tc r) :=
  StableHlo.after_of_writes_sub hostOps0_2 _ wr0_2_sub h

set_option maxRecDepth 100000 in
/-- The second stretch, from any contents: where the degree is positive its reciprocal square root, elsewhere the zero
    (the values pass through typed references on the way, which are transports along equations that hold by
    computation). -/
theorem dis_read (V : Valuation τ sig (Elt Ideal)) : StableHlo.after hostOps0_1 V (Proc.devRef .tc main_v15)
    = select (V (Proc.devRef .tc main_v13)) (V (Proc.devRef .tc main_v14))
        (broadcastInDim S50000 ![] bcast_S_S50000 (id (V (Proc.devRef .tc main_cst_2)))) := by
  after_results
  rfl

/-- The guarded reciprocal square root of the degrees. -/
theorem dis_at2 : W2 m ρ c (Proc.devRef .tc main_v15) = Cert.ReferenceIdeal.Read.val_main_v15 (F := Ideal) (m ((c : Thread nD τ).loc main_arg1)) (m ((c : Thread nD τ).loc main_arg2)) := by
  refine (dis_read (W1 m ρ c)).trans ?_
  rw [degpos_at1, degrs_at1, zero_at1]
  rfl

/-! ## When the first launch is entered -/

/-- The source node of every edge, the self loops appended. -/
theorem row_eq : W3 m ρ c (Proc.devRef .tc main_v3) = Cert.ReferenceIdeal.Read.val_main_v3 (F := Ideal) (m ((c : Thread nD τ).loc main_arg1)) :=
  (step3 m ρ c main_v3 (by decide)).trans ((step2 m ρ c main_v3 (by decide)).trans (row_at1 m ρ c))

/-- The target node of every edge, the self loops appended. -/
theorem col_eq : W3 m ρ c (Proc.devRef .tc main_v6) = Cert.ReferenceIdeal.Read.val_main_v6 (F := Ideal) (m ((c : Thread nD τ).loc main_arg1)) :=
  (step3 m ρ c main_v6 (by decide)).trans ((step2 m ρ c main_v6 (by decide)).trans (col_at1 m ρ c))

set_option maxRecDepth 100000 in
set_option maxHeartbeats 2000000 in
/-- The normalised weight of every edge. -/
theorem norm_eq : W3 m ρ c (Proc.devRef .tc main_v31) = Cert.ReferenceIdeal.Read.val_main_v31 (F := Ideal) (m ((c : Thread nD τ).loc main_arg1)) (m ((c : Thread nD τ).loc main_arg2)) := by
  show StableHlo.after hostOps0_2 (W2 m ρ c) (Proc.devRef .tc main_v31) = _
  generalize hV : W2 m ρ c = V
  after_results
  subst hV
  rw [dis_at2, step2 m ρ c main_v8 (by decide), ew_at1, step2 m ρ c main_v3 (by decide), row_at1,
    step2 m ρ c main_v6 (by decide), col_at1]
  rfl

end Cert.KernelIdeal.Layers

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.RefRead.lean ====
/-
  The reference program read one entry at a time.

  The reference is three graph-convolution layers.  Each layer multiplies the current features by the transpose of
  its weight matrix, aggregates rows along the edges (a scatter-add, kept closed here), adds a bias, and in the two
  hidden layers standardises each column with stored statistics, scales, shifts and clamps at zero.  The statements
  below read each of those per-entry stages at entry (p, q): a product stage is the sum over the shared axis of row p
  of the features against row q of the weights; a standardise-and-clamp stage is the one-number formula applied to
  the aggregated entry (p, q) and to entry q of each of the five vectors; the last stage is the aggregated entry
  plus entry q of the bias.  Every proof is the chain of per-operation reading lemmas of the generated module,
  followed by the identification of the composed index maps (a vector made a one-row matrix and repeated down the
  rows reads entry q; a transposed matrix read at (k, q) reads (q, k)) with indices written by their coordinates.
-/
import proofs.«136577_j41128606826857_1_alg».proof.Proof.Gen.ReferenceIdeal.Read
import proofs.«136577_j41128606826857_1_alg».proof.Proof.GcnSpec
import proofs.«136577_j41128606826857_1_alg».proof.Proof.LibMatRows
import proofs.«136577_j41128606826857_1_alg».proof.Proof.LibHostLayout

noncomputable section

open scoped BigOperators

namespace Cert.Gcn.RefRead

open Idealize.ShloMosaic Idealize.ShloMosaic.ValueIdx

/-! ## First layer -/

/-- The first product at entry (p, q): row p of the input features against row q of the first weight matrix. -/
theorem lin1_at (x0 : (⟨Cert.ReferenceIdeal.S50000x128, .f32⟩ : BufTy).Contents (Elt Ideal))
    (x3 : (⟨Cert.ReferenceIdeal.S96x128, .f32⟩ : BufTy).Contents (Elt Ideal))
    (p : Fin 50000) (q : Fin 96) :
    Cert.ReferenceIdeal.Read.val_main_v33 (F := Ideal) x0 x3 (ix2 p q) = Cert.Gcn.linAt x0 x3 p q := by
  rw [Cert.ReferenceIdeal.Read.val_main_v33_apply]
  unfold Cert.Gcn.linAt
  refine Finset.sum_congr rfl fun k _ => ?_
  rw [Cert.ReferenceIdeal.Read.val_main_v32_apply]
  have el : Cert.ReferenceIdeal.Read.lidx_main_v33 (ix2 p q) k = ix2 p k := by
    funext a
    match a with
    | ⟨0, _⟩ => rfl
    | ⟨1, _⟩ => rfl
  have er : Cert.ReferenceIdeal.Read.idx_main_v32 (Cert.ReferenceIdeal.Read.ridx_main_v33 (ix2 p q) k) = ix2 q k := by
    funext a
    match a with
    | ⟨0, _⟩ => rfl
    | ⟨1, _⟩ => rfl
  rw [el, er]

/-- The first hidden layer's output at entry (p, q): the aggregated entry, shifted by the bias, standardised, scaled, shifted and clamped at zero. -/
theorem bn1_at (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S96x128, .f32⟩ : BufTy).Contents (Elt Ideal))
    (x4 x9 x10 x11 x12 : (⟨Cert.ReferenceIdeal.S96, .f32⟩ : BufTy).Contents (Elt Ideal))
    (p : Fin 50000) (q : Fin 96) :
    Cert.ReferenceIdeal.Read.val_main_v65 (F := Ideal) x0 x1 x2 x3 x4 x9 x10 x11 x12 (ix2 p q)
      = Cert.Gcn.bn (Cert.ReferenceIdeal.Read.val_main_v46 (F := Ideal) x0 x1 x2 x3 (ix2 p q)) (x4 (ix1 q)) (x9 (ix1 q)) (x10 (ix1 q)) (x11 (ix1 q)) (x12 (ix1 q)) := by
  rw [Cert.ReferenceIdeal.Read.val_main_v65_apply,
    Cert.ReferenceIdeal.Read.val_main_v64_apply,
    Cert.ReferenceIdeal.Read.val_main_v61_apply,
    Cert.ReferenceIdeal.Read.val_main_v58_apply,
    Cert.ReferenceIdeal.Read.val_main_v52_apply,
    Cert.ReferenceIdeal.Read.val_main_v49_apply,
    Cert.ReferenceIdeal.Read.val_main_v48_apply,
    Cert.ReferenceIdeal.Read.val_main_v47_apply,
    Cert.ReferenceIdeal.Read.val_main_v51_apply,
    Cert.ReferenceIdeal.Read.val_main_v50_apply,
    Cert.ReferenceIdeal.Read.val_main_v57_apply,
    Cert.ReferenceIdeal.Read.val_main_v56_apply,
    Cert.ReferenceIdeal.Read.val_main_v55_apply,
    Cert.ReferenceIdeal.Read.val_main_v54_apply,
    Cert.ReferenceIdeal.Read.val_main_v53_apply,
    Cert.ReferenceIdeal.Read.val_main_cst_9_apply,
    Cert.ReferenceIdeal.Read.val_main_v60_apply,
    Cert.ReferenceIdeal.Read.val_main_v59_apply,
    Cert.ReferenceIdeal.Read.val_main_v63_apply,
    Cert.ReferenceIdeal.Read.val_main_v62_apply,
    Cert.ReferenceIdeal.Read.val_main_call1_v0_apply,
    Cert.ReferenceIdeal.Read.val_main_call1_cst_apply]
  have e4 : Cert.ReferenceIdeal.Read.idx_main_v47 (Cert.ReferenceIdeal.Read.idx_main_v48 (ix2 p q)) = ix1 q := by
    funext a
    match a with
    | ⟨0, _⟩ => rfl
  have e11 : Cert.ReferenceIdeal.Read.idx_main_v50 (Cert.ReferenceIdeal.Read.idx_main_v51 (ix2 p q)) = ix1 q := by
    funext a
    match a with
    | ⟨0, _⟩ => rfl
  have e12 : Cert.ReferenceIdeal.Read.idx_main_v56 (Cert.ReferenceIdeal.Read.idx_main_v57 (ix2 p q)) = ix1 q := by
    funext a
    match a with
    | ⟨0, _⟩ => rfl
  have e9 : Cert.ReferenceIdeal.Read.idx_main_v59 (Cert.ReferenceIdeal.Read.idx_main_v60 (ix2 p q)) = ix1 q := by
    funext a
    match a with
    | ⟨0, _⟩ => rfl
  have e10 : Cert.ReferenceIdeal.Read.idx_main_v62 (Cert.ReferenceIdeal.Read.idx_main_v63 (ix2 p q)) = ix1 q := by
    funext a
    match a with
    | ⟨0, _⟩ => rfl
  rw [e4, e11, e12, e9, e10]
  simp only [Ideal.addf_def, Ideal.subf_def, Ideal.mulf_def, Ideal.maximumf_def, Ideal.hostUnary_rsqrt_def,
    Ideal.ofBits_def]
  rfl

/-! ## Second layer -/

/-- The second product at entry (p, q): row p of the first hidden layer's output against row q of the second weight matrix. -/
theorem lin2_at (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S96x128, .f32⟩ : BufTy).Contents (Elt Ideal))
    (x4 : (⟨Cert.ReferenceIdeal.S96, .f32⟩ : BufTy).Contents (Elt Ideal))
    (x5 : (⟨Cert.ReferenceIdeal.S96x96, .f32⟩ : BufTy).Contents (Elt Ideal))
    (x9 x10 x11 x12 : (⟨Cert.ReferenceIdeal.S96, .f32⟩ : BufTy).Contents (Elt Ideal))
    (p : Fin 50000) (q : Fin 96) :
    Cert.ReferenceIdeal.Read.val_main_v67 (F := Ideal) x0 x1 x2 x3 x4 x5 x9 x10 x11 x12 (ix2 p q) = Cert.Gcn.linAt (Cert.ReferenceIdeal.Read.val_main_v65 (F := Ideal) x0 x1 x2 x3 x4 x9 x10 x11 x12) x5 p q := by
  rw [Cert.ReferenceIdeal.Read.val_main_v67_apply]
  unfold Cert.Gcn.linAt
  refine Finset.sum_congr rfl fun k _ => ?_
  rw [Cert.ReferenceIdeal.Read.val_main_v66_apply]
  have el : Cert.ReferenceIdeal.Read.lidx_main_v67 (ix2 p q) k = ix2 p k := by
    funext a
    match a with
    | ⟨0, _⟩ => rfl
    | ⟨1, _⟩ => rfl
  have er : Cert.ReferenceIdeal.Read.idx_main_v66 (Cert.ReferenceIdeal.Read.ridx_main_v67 (ix2 p q) k) = ix2 q k := by
    funext a
    match a with
    | ⟨0, _⟩ => rfl
    | ⟨1, _⟩ => rfl
  rw [el, er]

/-- The second hidden layer's output at entry (p, q): the aggregated entry, shifted by the bias, standardised, scaled, shifted and clamped at zero. -/
theorem bn2_at (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S96x128, .f32⟩ : BufTy).Contents (Elt Ideal))
    (x4 : (⟨Cert.ReferenceIdeal.S96, .f32⟩ : BufTy).Contents (Elt Ideal))
    (x5 : (⟨Cert.ReferenceIdeal.S96x96, .f32⟩ : BufTy).Contents (Elt Ideal))
    (x6 x9 x10 x11 x12 x13 x14 x15 x16 : (⟨Cert.ReferenceIdeal.S96, .f32⟩ : BufTy).Contents (Elt Ideal))
    (p : Fin 50000) (q : Fin 96) :
    Cert.ReferenceIdeal.Read.val_main_v99 (F := Ideal) x0 x1 x2 x3 x4 x5 x6 x9 x10 x11 x12 x13 x14 x15 x16 (ix2 p q)
      = Cert.Gcn.bn (Cert.ReferenceIdeal.Read.val_main_v80 (F := Ideal) x0 x1 x2 x3 x4 x5 x9 x10 x11 x12 (ix2 p q)) (x6 (ix1 q)) (x13 (ix1 q)) (x14 (ix1 q)) (x15 (ix1 q)) (x16 (ix1 q)) := by
  rw [Cert.ReferenceIdeal.Read.val_main_v99_apply,
    Cert.ReferenceIdeal.Read.val_main_v98_apply,
    Cert.ReferenceIdeal.Read.val_main_v95_apply,
    Cert.ReferenceIdeal.Read.val_main_v92_apply,
    Cert.ReferenceIdeal.Read.val_main_v86_apply,
    Cert.ReferenceIdeal.Read.val_main_v83_apply,
    Cert.ReferenceIdeal.Read.val_main_v82_apply,
    Cert.ReferenceIdeal.Read.val_main_v81_apply,
    Cert.ReferenceIdeal.Read.val_main_v85_apply,
    Cert.ReferenceIdeal.Read.val_main_v84_apply,
    Cert.ReferenceIdeal.Read.val_main_v91_apply,
    Cert.ReferenceIdeal.Read.val_main_v90_apply,
    Cert.ReferenceIdeal.Read.val_main_v89_apply,
    Cert.ReferenceIdeal.Read.val_main_v88_apply,
    Cert.ReferenceIdeal.Read.val_main_v87_apply,
    Cert.ReferenceIdeal.Read.val_main_cst_13_apply,
    Cert.ReferenceIdeal.Read.val_main_v94_apply,
    Cert.ReferenceIdeal.Read.val_main_v93_apply,
    Cert.ReferenceIdeal.Read.val_main_v97_apply,
    Cert.ReferenceIdeal.Read.val_main_v96_apply,
    Cert.ReferenceIdeal.Read.val_main_call2_v0_apply,
    Cert.ReferenceIdeal.Read.val_main_call2_cst_apply]
  have e6 : Cert.ReferenceIdeal.Read.idx_main_v81 (Cert.ReferenceIdeal.Read.idx_main_v82 (ix2 p q)) = ix1 q := by
    funext a
    match a with
    | ⟨0, _⟩ => rfl
  have e15 : Cert.ReferenceIdeal.Read.idx_main_v84 (Cert.ReferenceIdeal.Read.idx_main_v85 (ix2 p q)) = ix1 q := by
    funext a
    match a with
    | ⟨0, _⟩ => rfl
  have e16 : Cert.ReferenceIdeal.Read.idx_main_v90 (Cert.ReferenceIdeal.Read.idx_main_v91 (ix2 p q)) = ix1 q := by
    funext a
    match a with
    | ⟨0, _⟩ => rfl
  have e13 : Cert.ReferenceIdeal.Read.idx_main_v93 (Cert.ReferenceIdeal.Read.idx_main_v94 (ix2 p q)) = ix1 q := by
    funext a
    match a with
    | ⟨0, _⟩ => rfl
  have e14 : Cert.ReferenceIdeal.Read.idx_main_v96 (Cert.ReferenceIdeal.Read.idx_main_v97 (ix2 p q)) = ix1 q := by
    funext a
    match a with
    | ⟨0, _⟩ => rfl
  rw [e6, e15, e16, e13, e14]
  simp only [Ideal.addf_def, Ideal.subf_def, Ideal.mulf_def, Ideal.maximumf_def, Ideal.hostUnary_rsqrt_def,
    Ideal.ofBits_def]
  rfl

/-! ## Third layer -/

/-- The third product at entry (p, q): row p of the second hidden layer's output against row q of the third weight matrix. -/
theorem lin3_at (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S96x128, .f32⟩ : BufTy).Contents (Elt Ideal))
    (x4 : (⟨Cert.ReferenceIdeal.S96, .f32⟩ : BufTy).Contents (Elt Ideal))
    (x5 : (⟨Cert.ReferenceIdeal.S96x96, .f32⟩ : BufTy).Contents (Elt Ideal))
    (x6 : (⟨Cert.ReferenceIdeal.S96, .f32⟩ : BufTy).Contents (Elt Ideal))
    (x7 : (⟨Cert.ReferenceIdeal.S64x96, .f32⟩ : BufTy).Contents (Elt Ideal))
    (x9 x10 x11 x12 x13 x14 x15 x16 : (⟨Cert.ReferenceIdeal.S96, .f32⟩ : BufTy).Contents (Elt Ideal))
    (p : Fin 50000) (q : Fin 64) :
    Cert.ReferenceIdeal.Read.val_main_v101 (F := Ideal) x0 x1 x2 x3 x4 x5 x6 x7 x9 x10 x11 x12 x13 x14 x15 x16 (ix2 p q) = Cert.Gcn.linAt (Cert.ReferenceIdeal.Read.val_main_v99 (F := Ideal) x0 x1 x2 x3 x4 x5 x6 x9 x10 x11 x12 x13 x14 x15 x16) x7 p q := by
  rw [Cert.ReferenceIdeal.Read.val_main_v101_apply]
  unfold Cert.Gcn.linAt
  refine Finset.sum_congr rfl fun k _ => ?_
  rw [Cert.ReferenceIdeal.Read.val_main_v100_apply]
  have el : Cert.ReferenceIdeal.Read.lidx_main_v101 (ix2 p q) k = ix2 p k := by
    funext a
    match a with
    | ⟨0, _⟩ => rfl
    | ⟨1, _⟩ => rfl
  have er : Cert.ReferenceIdeal.Read.idx_main_v100 (Cert.ReferenceIdeal.Read.ridx_main_v101 (ix2 p q) k) = ix2 q k := by
    funext a
    match a with
    | ⟨0, _⟩ => rfl
    | ⟨1, _⟩ => rfl
  rw [el, er]

/-- The program's result at entry (p, q): the third layer's aggregated entry plus entry q of its bias. -/
theorem bias_at (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S96x128, .f32⟩ : BufTy).Contents (Elt Ideal))
    (x4 : (⟨Cert.ReferenceIdeal.S96, .f32⟩ : BufTy).Contents (Elt Ideal))
    (x5 : (⟨Cert.ReferenceIdeal.S96x96, .f32⟩ : BufTy).Contents (Elt Ideal))
    (x6 : (⟨Cert.ReferenceIdeal.S96, .f32⟩ : BufTy).Contents (Elt Ideal))
    (x7 : (⟨Cert.ReferenceIdeal.S64x96, .f32⟩ : BufTy).Contents (Elt Ideal))
    (x8 : (⟨Cert.ReferenceIdeal.S64, .f32⟩ : BufTy).Contents (Elt Ideal))
    (x9 x10 x11 x12 x13 x14 x15 x16 : (⟨Cert.ReferenceIdeal.S96, .f32⟩ : BufTy).Contents (Elt Ideal))
    (p : Fin 50000) (q : Fin 64) :
    Cert.ReferenceIdeal.Read.val_main_v117 (F := Ideal) x0 x1 x2 x3 x4 x5 x6 x7 x8 x9 x10 x11 x12 x13 x14 x15 x16 (ix2 p q) = Cert.ReferenceIdeal.Read.val_main_v114 (F := Ideal) x0 x1 x2 x3 x4 x5 x6 x7 x9 x10 x11 x12 x13 x14 x15 x16 (ix2 p q) + x8 (ix1 q) := by
  rw [Cert.ReferenceIdeal.Read.val_main_v117_apply, Cert.ReferenceIdeal.Read.val_main_v116_apply, Cert.ReferenceIdeal.Read.val_main_v115_apply]
  have e8 : Cert.ReferenceIdeal.Read.idx_main_v115 (Cert.ReferenceIdeal.Read.idx_main_v116 (ix2 p q)) = ix1 q := by
    funext a
    match a with
    | ⟨0, _⟩ => rfl
  rw [e8]
  rfl

end Cert.Gcn.RefRead

end
-- ==== Proof.KRegLin0.lean ====
/-
  The first matrix-product region, read entry by entry.

  The region walks the 50000 rows of the feature matrix in ten blocks of 5000 rows.  At each block it multiplies the
  block by the transpose of the whole weight matrix and writes the product into the same rows of the result.  Entry
  (p, c) of a block's product needs row p of the block, all of it, and row c of the weight, so the block is not a
  pointwise function of the left block; it is, however, the restriction to the block's rows of ONE function of the two
  whole arrays: entry (r, c) is row r of the features against row c of the weight.  The ten blocks tile the result, so
  the result array is that function everywhere.
-/
import proofs.«136577_j41128606826857_1_alg».proof.Proof.Gen.KernelIdeal.Frame
import proofs.«136577_j41128606826857_1_alg».proof.Proof.GcnSpec
import proofs.«136577_j41128606826857_1_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

/-- The all-zero offset of a whole-buffer access. -/
theorem zeroOff0 : (![0, 0] : Fin 2 → Nat) = fun _ => 0 := funext fun a => by fin_cases a <;> rfl

/-- The result as one function of the two whole arrays: entry i is row (i 0) of x against row (i 1) of w. -/
def lin0 (x : S50000x128.Idx → EReal) (w : S96x128.Idx → EReal) : S50000x96.Idx → EReal :=
  fun i => Cert.Gcn.linAt x w (⟨(i 0).val, (i 0).isLt⟩ : Fin 50000) (⟨(i 1).val, (i 1).isLt⟩ : Fin 96)

/-- One block's product at entry (p, q): row p of the left block against row q of the weight block.  The two
    narrowings are the identity on extended reals, the transposed weight at (k, q) is the weight at (q, k), and the
    product accumulated into zero is the plain sum over the shared axis. -/
theorem pay0_at (x0 : Vec Ideal S5000x128 .f32) (x1 : Vec Ideal S96x128 .f32) (p : Fin 5000) (q : Fin 96) :
    k0_pay1 (F := Ideal) x0 x1 (ix2 p q) = ∑ k : Fin 128, x0 (ix2 p k) * x1 (ix2 q k) := by
  unfold k0_pay1
  show matmul dot_S5000x128_S128x96_S5000x96_1_0_0_1_n_n none (truncf .bf16 x0 bitsLt_bf16_f32)
      (transpose S128x96 [1, 0] (truncf .bf16 x1 bitsLt_bf16_f32) transposes_S96x128_p1_0_S128x96)
      (constant (F := Ideal) S5000x96 .f32 0x00000000#32) (ix2 p q) = _
  rw [show dot_S5000x128_S128x96_S5000x96_1_0_0_1_n_n = DotDims.plain 5000 128 96 from rfl]
  rw [MatRows.matmul_plain_apply]
  refine Finset.sum_congr rfl fun k _ => ?_
  rw [transpose_apply [1, 0] _ transposes_S96x128_p1_0_S128x96 (ix2 k q) (ix2 q k)
    (fun b => by match b with | ⟨0, _⟩ => rfl | ⟨1, _⟩ => rfl)]
  rfl

/-- The block written at block-row n, as the restriction of `lin0`: if the left block holds rows n·5000 … of X
    and the weight block holds all of W, then entry j of the block's product is `lin0 X W` at the entry of the array
    that j sits on. -/
theorem blk0_at (X : S50000x128.Idx → EReal) (W : S96x128.Idx → EReal)
    (x0 : Vec Ideal S5000x128 .f32) (x1 : Vec Ideal S96x128 .f32) (n : Nat)
    (h0 : ∀ (p : Fin 5000) (k : Fin 128) (r : Fin 50000), r.val = n * 5000 + p.val → x0 (ix2 p k) = X (ix2 r k))
    (h1 : ∀ (q : Fin 96) (k : Fin 128), x1 (ix2 q k) = W (ix2 q k))
    (j : S5000x96.Idx) (i : S50000x96.Idx)
    (hi0 : (i 0).val = n * 5000 + (j 0).val) (hi1 : (i 1).val = (j 1).val) :
    k0_pay1 (F := Ideal) x0 x1 j = lin0 X W i := by
  obtain ⟨p, q, rfl⟩ : ∃ (p : Fin 5000) (q : Fin 96), j = ix2 p q := ⟨j 0, j 1, eq_ix2 j⟩
  rw [pay0_at]
  unfold lin0 Cert.Gcn.linAt
  refine Finset.sum_congr rfl fun k _ => ?_
  rw [h0 p k ⟨(i 0).val, (i 0).isLt⟩ hi0, h1 q k]
  have hq : (⟨(i 1).val, (i 1).isLt⟩ : Fin 96) = q := Fin.ext hi1
  rw [hq]

/-- The block indices at each of the ten points: the left window's row block is the result window's and its column
    block is 0, the weight window sits at block (0, 0), and the result's row block is below 10. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the result is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of `lin0` of the two arrays as the region finds them. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (lin0 (V c main_arg0) (V c main_arg3)) := by
  show (cfg0.win 2).cut (grid0.coords t) ((dat0 (F := Ideal) V c).after 2 t) = _
  rw [after0_2]
  unfold out0_2
  rw [View.canon_unit_zero zeroOff0]
  simp only [View.ld_unit_zero (S := S5000x128) zeroOff0, View.ld_unit_zero (S := S96x128) zeroOff0]
  obtain ⟨e0, e1, e2, e3, e4, e5⟩ := idx_facts0 t
  funext j
  show k0_pay1 (F := Ideal) (iblk0 V c 0 t) (iblk0 V c 1 t) j
    = lin0 (V c main_arg0) (V c main_arg3) (((cfg0.win 2).blk t).view.emb j)
  refine blk0_at (V c main_arg0) (V c main_arg3) (iblk0 V c 0 t) (iblk0 V c 1 t) (win0_2.index t (0 : Fin 2))
    ?_ ?_ j _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro q k
    show V c main_arg3 (((cfg0.win 1).blk t).view.emb (ix2 q k)) = V c main_arg3 (ix2 q k)
    refine congrArg (V c main_arg3) (funext fun a => Fin.ext ?_)
    match a with
    | ⟨0, _⟩ => show win0_1.index t (0 : Fin 2) * 96 + 1 * q.val = q.val; omega
    | ⟨1, _⟩ => show win0_1.index t (1 : Fin 2) * 128 + 1 * k.val = k.val; omega
  · show win0_2.index t (0 : Fin 2) * 5000 + 1 * (j 0).val = win0_2.index t (0 : Fin 2) * 5000 + (j 0).val; omega
  · show win0_2.index t (1 : Fin 2) * 96 + 1 * (j 1).val = (j 1).val; omega

/-- An entry of the result is in point t's block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v32).slice (win0_2.rect t)).set ↔ _
  rw [View.set_slice_whole, Rect.mem_set_unit]
  exact Iff.rfl

/-- The ten blocks cover the result: row r is in the block of point r / 5000. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 96 ≤ (i 1).val ∧ (i 1).val < win0_2.index t (1 : Fin 2) * 96 + 96
    omega

/-- The result array after the region is `lin0` of the two arrays as the region finds them. -/
theorem final0 (V : (c : Dev nD) → (b : Ref sig .tc) → Buf (Elt Ideal) ((c : Thread nD τ).loc b)) (c : Dev nD) :
    (dat0 (F := Ideal) V c).arrAt 2 cfg0.N = lin0 (V c main_arg0) (V c main_arg3) :=
  (dat0 (F := Ideal) V c).arrAt_eq_of_cover 2 (lin0 (V c main_arg0) (V c main_arg3))
    (fun t _ => flushed0_eq V c t) cover0

/-- The result array after the region, at entry (p, q): row p of the features against row q of the weight. -/
theorem lin0_at (V : (c : Dev nD) → (b : Ref sig .tc) → Buf (Elt Ideal) ((c : Thread nD τ).loc b)) (c : Dev nD)
    (p : Fin 50000) (q : Fin 96) :
    (Gen.dat0 (F := Ideal) V c).arrAt 2 cfg0.N (ix2 p q) = Cert.Gcn.linAt (V c main_arg0) (V c main_arg3) p q :=
  congrFun (final0 V c) (ix2 p q)

end Cert.KernelIdeal.Reg

end
-- ==== Proof.KRegBn1.lean ====
/-
  The first standardise-and-clamp region of the kernel, read entry by entry.

  The region walks the 50000 rows of the aggregated array in ten blocks of 5000 rows.  On each block it adds the bias
  row, subtracts the mean row, multiplies by the reciprocal square root of the variance row shifted by a small positive
  constant, scales by the gain row, adds the offset row and clamps from below at zero.  The five rows are one and the
  same row of 96 numbers at every block.  Row r of the array lies in block r / 5000 and in no other, so the array the
  region leaves holds, at row p and column q, that arithmetic of entry (p, q) of the aggregated array and of entry q of
  each of the five rows.
-/
import proofs.«136577_j41128606826857_1_alg».proof.Proof.Gen.KernelIdeal.Frame
import proofs.«136577_j41128606826857_1_alg».proof.Proof.GcnSpec
import Idealize.ShloMosaic.Lib.Pipeline.Value
import Idealize.ShloMosaic.Lib.ValueIdx
import Idealize.ShloMosaic.Lib.ValueLayout

noncomputable section

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The two zero offsets of a whole-block access, as a constant function. -/
theorem zeroOff1 : (![0, 0] : Fin 2 → Nat) = fun _ => 0 := funext fun a => by fin_cases a <;> rfl

/-- A reciprocal square root of a block, at an entry, is that of the entry. -/
theorem rsqrt_at1 {s : Shape} {φ : FTy} (a : FVec Ideal s φ) (i : s.Idx) : rsqrt a i = Ideal.rsqrt (a i) := rfl

/-- Two blocks of 5000 rows of 96 numbers that agree at every row and column are equal. -/
theorem ext_block1 {X Y : S5000x96.Idx → EReal} (h : ∀ (r : Fin 5000) (q : Fin 96), X (ix2 r q) = Y (ix2 r q)) : X = Y :=
  funext fun j => by rw [eq_ix2 j]; exact h _ _

/-- What the body computes on one block, at row r and column q of the block: the standardise-and-clamp of the
    block's entry with entry q of each row. -/
theorem bn1_block_at (b mean var g beta : Vec Ideal S1x96 .f32) (agg : Vec Ideal S5000x96 .f32) (r : Fin 5000) (q : Fin 96) :
    k1_pay1 (F := Ideal) b mean var g beta agg (ix2 r q)
      = Cert.Gcn.bn (agg (ix2 r q)) (b (ix2 (0 : Fin 1) q)) (g (ix2 (0 : Fin 1) q)) (beta (ix2 (0 : Fin 1) q))
          (mean (ix2 (0 : Fin 1) q)) (var (ix2 (0 : Fin 1) q)) := by
  unfold k1_pay1
  simp only [shapeCast_self, maximumf_apply, addf_apply, mulf_apply, subf_apply, rsqrt_at1, broadcast_apply,
    broadcastTo_1b_ab_apply]
  rfl

/-- The array the region leaves, as one function of the arrays it reads: entry (p, q) is the standardise-and-clamp
    of entry (p, q) of the aggregated array with entry q of the bias, gain, offset, mean and variance rows. -/
def bn1Arr (a : S50000x96.Idx → EReal) (b g beta mean var : S1x96.Idx → EReal) : S50000x96.Idx → EReal :=
  fun i => Cert.Gcn.bn (a i) (b (ix2 (0 : Fin 1) (i 1 : Fin 96))) (g (ix2 (0 : Fin 1) (i 1 : Fin 96)))
    (beta (ix2 (0 : Fin 1) (i 1 : Fin 96))) (mean (ix2 (0 : Fin 1) (i 1 : Fin 96))) (var (ix2 (0 : Fin 1) (i 1 : Fin 96)))

/-- The block indices at a point of the grid, decided over its ten points: the aggregated array's block and the
    output's block are the point's own, in the one column block; each row's block is the row itself. -/
theorem bn1_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r, column q of a point's block of the aggregated array is where row r, column q of its output block is. -/
theorem bn1_emb0 (t : Fin cfg1.N) (r : Fin 5000) (q : Fin 96) :
    ((cfg1.win 0).blk t).view.emb (ix2 r q) = ((cfg1.win 6).blk t).view.emb (ix2 r q) := by
  obtain ⟨e00, e01, e10, e11, e20, e21, e30, e31, e40, e41, e50, e51, e60, e61⟩ := bn1_maps t
  funext a; apply Fin.ext
  match a with
  | ⟨0, _⟩ => show win1_0.index t (0 : Fin 2) * 5000 + 1 * r.val = win1_6.index t (0 : Fin 2) * 5000 + 1 * r.val; omega
  | ⟨1, _⟩ => show win1_0.index t (1 : Fin 2) * 96 + 1 * q.val = win1_6.index t (1 : Fin 2) * 96 + 1 * q.val; omega

/-- Column q of a point's block of row array 1 is column q of the one row, the column of the output block's entry (r, q). -/
theorem bn1_emb1 (t : Fin cfg1.N) (r : Fin 5000) (q : Fin 96) :
    ((cfg1.win 1).blk t).view.emb (ix2 (0 : Fin 1) q) = ix2 (0 : Fin 1) ((((cfg1.win 6).blk t).view.emb (ix2 r q)) 1 : Fin 96) := by
  obtain ⟨e00, e01, e10, e11, e20, e21, e30, e31, e40, e41, e50, e51, e60, e61⟩ := bn1_maps t
  funext a; apply Fin.ext
  match a with
  | ⟨0, _⟩ => show win1_1.index t (0 : Fin 2) * 1 + 1 * 0 = 0; omega
  | ⟨1, _⟩ => show win1_1.index t (1 : Fin 2) * 96 + 1 * q.val = win1_6.index t (1 : Fin 2) * 96 + 1 * q.val; omega

/-- Column q of a point's block of row array 2 is column q of the one row, the column of the output block's entry (r, q). -/
theorem bn1_emb2 (t : Fin cfg1.N) (r : Fin 5000) (q : Fin 96) :
    ((cfg1.win 2).blk t).view.emb (ix2 (0 : Fin 1) q) = ix2 (0 : Fin 1) ((((cfg1.win 6).blk t).view.emb (ix2 r q)) 1 : Fin 96) := by
  obtain ⟨e00, e01, e10, e11, e20, e21, e30, e31, e40, e41, e50, e51, e60, e61⟩ := bn1_maps t
  funext a; apply Fin.ext
  match a with
  | ⟨0, _⟩ => show win1_2.index t (0 : Fin 2) * 1 + 1 * 0 = 0; omega
  | ⟨1, _⟩ => show win1_2.index t (1 : Fin 2) * 96 + 1 * q.val = win1_6.index t (1 : Fin 2) * 96 + 1 * q.val; omega

/-- Column q of a point's block of row array 3 is column q of the one row, the column of the output block's entry (r, q). -/
theorem bn1_emb3 (t : Fin cfg1.N) (r : Fin 5000) (q : Fin 96) :
    ((cfg1.win 3).blk t).view.emb (ix2 (0 : Fin 1) q) = ix2 (0 : Fin 1) ((((cfg1.win 6).blk t).view.emb (ix2 r q)) 1 : Fin 96) := by
  obtain ⟨e00, e01, e10, e11, e20, e21, e30, e31, e40, e41, e50, e51, e60, e61⟩ := bn1_maps t
  funext a; apply Fin.ext
  match a with
  | ⟨0, _⟩ => show win1_3.index t (0 : Fin 2) * 1 + 1 * 0 = 0; omega
  | ⟨1, _⟩ => show win1_3.index t (1 : Fin 2) * 96 + 1 * q.val = win1_6.index t (1 : Fin 2) * 96 + 1 * q.val; omega

/-- Column q of a point's block of row array 4 is column q of the one row, the column of the output block's entry (r, q). -/
theorem bn1_emb4 (t : Fin cfg1.N) (r : Fin 5000) (q : Fin 96) :
    ((cfg1.win 4).blk t).view.emb (ix2 (0 : Fin 1) q) = ix2 (0 : Fin 1) ((((cfg1.win 6).blk t).view.emb (ix2 r q)) 1 : Fin 96) := by
  obtain ⟨e00, e01, e10, e11, e20, e21, e30, e31, e40, e41, e50, e51, e60, e61⟩ := bn1_maps t
  funext a; apply Fin.ext
  match a with
  | ⟨0, _⟩ => show win1_4.index t (0 : Fin 2) * 1 + 1 * 0 = 0; omega
  | ⟨1, _⟩ => show win1_4.index t (1 : Fin 2) * 96 + 1 * q.val = win1_6.index t (1 : Fin 2) * 96 + 1 * q.val; omega

/-- Column q of a point's block of row array 5 is column q of the one row, the column of the output block's entry (r, q). -/
theorem bn1_emb5 (t : Fin cfg1.N) (r : Fin 5000) (q : Fin 96) :
    ((cfg1.win 5).blk t).view.emb (ix2 (0 : Fin 1) q) = ix2 (0 : Fin 1) ((((cfg1.win 6).blk t).view.emb (ix2 r q)) 1 : Fin 96) := by
  obtain ⟨e00, e01, e10, e11, e20, e21, e30, e31, e40, e41, e50, e51, e60, e61⟩ := bn1_maps t
  funext a; apply Fin.ext
  match a with
  | ⟨0, _⟩ => show win1_5.index t (0 : Fin 2) * 1 + 1 * 0 = 0; omega
  | ⟨1, _⟩ => show win1_5.index t (1 : Fin 2) * 96 + 1 * q.val = win1_6.index t (1 : Fin 2) * 96 + 1 * q.val; omega

/-- The standardise-and-clamp of entries read at equal indices is the same number. -/
theorem bn1_congr (A : S50000x96.Idx → EReal) (B G Be M Va : S1x96.Idx → EReal) {i i' : S50000x96.Idx}
    {j1 j2 j3 j4 j5 j : S1x96.Idx} (h0 : i = i') (h1 : j1 = j) (h2 : j2 = j) (h3 : j3 = j) (h4 : j4 = j) (h5 : j5 = j) :
    Cert.Gcn.bn (A i) (B j1) (G j2) (Be j3) (M j4) (Va j5) = Cert.Gcn.bn (A i') (B j) (G j) (Be j) (M j) (Va j) := by
  subst h0 h1 h2 h3 h4 h5; rfl

/-- What a point of the grid writes back is its block of that one function of the arrays the region reads. -/
theorem bn1_written (c : Dev nD) (t : Fin cfg1.N) :
    (dat1 (F := Ideal) V c).flushed 6 t = ((cfg1.win 6).blk t).view.read (Elt Ideal)
      (bn1Arr (V c main_v45) (V c main_v46) (V c main_v47) (V c main_v48) (V c main_v49) (V c main_v50)) := by
  show (cfg1.win 6).cut (grid1.coords t) ((dat1 V c).after 6 t) = _
  rw [after1_6]
  unfold out1_6
  rw [View.canon_unit_zero zeroOff1]
  simp only [View.ld_unit_zero (S := S1x96) zeroOff1, View.ld_unit_zero (S := S5000x96) zeroOff1]
  refine ext_block1 fun r q => ?_
  show k1_pay1 (F := Ideal) (iblk1 V c 1 t) (iblk1 V c 4 t) (iblk1 V c 5 t) (iblk1 V c 2 t) (iblk1 V c 3 t) (iblk1 V c 0 t) (ix2 r q) = _
  rw [bn1_block_at]
  exact bn1_congr (V c main_v45) (V c main_v46) (V c main_v47) (V c main_v48) (V c main_v49) (V c main_v50)
    (bn1_emb0 t r q) (bn1_emb1 t r q) (bn1_emb2 t r q) (bn1_emb3 t r q) (bn1_emb4 t r q) (bn1_emb5 t r q)

/-- An index of the array is in a point's block iff each coordinate is in the block's range on its axis. -/
theorem bn1_mem_block (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v51).slice (win1_6.rect t)).set ↔ _
  rw [View.set_slice_whole, Rect.mem_set_unit]
  exact Iff.rfl

/-- Every index of the array is in the block of the point its row, divided by 5000, names. -/
theorem bn1_cover (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61⟩ := bn1_maps t
  refine ⟨t, flush1_6 t, ?_⟩
  rw [bn1_mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 96 ≤ (i 1).val ∧ (i 1).val < win1_6.index t (1 : Fin 2) * 96 + 96; omega

/-- The array after the region is that one function of the arrays the region reads. -/
theorem bn1_array (c : Dev nD) :
    (dat1 (F := Ideal) V c).arrAt 6 cfg1.N
      = bn1Arr (V c main_v45) (V c main_v46) (V c main_v47) (V c main_v48) (V c main_v49) (V c main_v50) :=
  (dat1 (F := Ideal) V c).arrAt_eq_of_cover 6 _ (fun t _ => bn1_written V c t) bn1_cover

/-- Entry (p, q) of the array after the region. -/
theorem bn1_at (c : Dev nD) (p : Fin 50000) (q : Fin 96) :
    (Gen.dat1 (F := Ideal) V c).arrAt 6 cfg1.N (ix2 p q)
      = Cert.Gcn.bn (V c main_v45 (ix2 p q)) (V c main_v46 (ix2 (0 : Fin 1) q)) (V c main_v47 (ix2 (0 : Fin 1) q))
          (V c main_v48 (ix2 (0 : Fin 1) q)) (V c main_v49 (ix2 (0 : Fin 1) q)) (V c main_v50 (ix2 (0 : Fin 1) q)) :=
  congrFun (bn1_array V c) (ix2 p q)

end Cert.KernelIdeal.Reg

end
-- ==== Proof.KLayer1.lean ====
/-
  The first layer.

  The kernel program's first launch multiplies the node features by the transposed first weight matrix, block of rows
  by block of rows; the reference does it with one host product: the same sums.  Both then gather, scale and add the
  rows along the edges with the same host operations.  The second launch adds the bias row, standardises each column
  with the stored mean and variance, scales, shifts and clamps at zero; the reference does the same arithmetic with
  host operations on whole arrays.  The five parameter rows the launch reads are the parameter vectors reshaped to one
  row.
-/
import proofs.«136577_j41128606826857_1_alg».proof.Proof.Gen.KernelIdeal.Frame
import proofs.«136577_j41128606826857_1_alg».proof.Proof.Gen.ReferenceIdeal.Read
import proofs.«136577_j41128606826857_1_alg».proof.Proof.GcnSpec
import proofs.«136577_j41128606826857_1_alg».proof.Proof.LibHostLayout
import proofs.«136577_j41128606826857_1_alg».proof.Proof.KCarry
import proofs.«136577_j41128606826857_1_alg».proof.Proof.KPre
import proofs.«136577_j41128606826857_1_alg».proof.Proof.RefRead
import proofs.«136577_j41128606826857_1_alg».proof.Proof.KRegLin0
import proofs.«136577_j41128606826857_1_alg».proof.Proof.KRegBn1

noncomputable section

namespace Cert.KernelIdeal.Layers

open Cert.KernelIdeal Cert.KernelIdeal.Gen Cert.KernelIdeal.Carry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The node features times the transposed first weights. -/
theorem xw1_eq : W4 m ρ c (Proc.devRef .tc main_v32) = Cert.ReferenceIdeal.Read.val_main_v33 (F := Ideal) (m ((c : Thread nD τ).loc main_arg0)) (m ((c : Thread nD τ).loc main_arg3)) := by
  refine (W4_arr m ρ c 2).trans ?_
  funext i
  obtain ⟨p, q, rfl⟩ : ∃ (p : Fin 50000) (q : Fin 96), i = ix2 p q := ⟨i 0, i 1, eq_ix2 i⟩
  refine (Reg.lin0_at (V3 m ρ) c p q).trans ?_
  rw [Cert.Gcn.RefRead.lin1_at]
  show Cert.Gcn.linAt (W3 m ρ c (Proc.devRef .tc main_arg0)) (W3 m ρ c (Proc.devRef .tc main_arg3)) p q = _
  rw [at3_launch m ρ c main_arg0 (by decide) (by decide) (by decide), at3_launch m ρ c main_arg3 (by decide) (by decide) (by decide)]

set_option maxRecDepth 100000 in
set_option maxHeartbeats 2000000 in
/-- The first layer's rows gathered along the edges, scaled and added up at the targets. -/
theorem agg1_eq : W5 m ρ c (Proc.devRef .tc main_v45) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v45) = _
  generalize hV : W4 m ρ c = V
  after_results
  subst hV
  rw [xw1_eq, from4 m ρ c main_v31 (by decide), norm_eq, from4 m ρ c main_v3 (by decide), row_eq,
    from4 m ρ c main_v6 (by decide), col_eq]
  rfl

/-- The first bias, as a row. -/
theorem b1_row (q : Fin 96) : W5 m ρ c (Proc.devRef .tc main_v46) (ix2 (0 : Fin 1) q) = (m ((c : Thread nD τ).loc main_arg4)) (ix1 q) := by
  have e : W5 m ρ c (Proc.devRef .tc main_v46) = shapeCast S1x96 (W4 m ρ c (Proc.devRef .tc main_arg4)) shapeCasts_S96_S1x96 := by
    show StableHlo.after hostOps1 (W4 m ρ c) (Proc.devRef .tc main_v46) = _
    generalize hV : W4 m ρ c = V
    after_results
    subst hV
    rfl
  rw [e, Cert.HostLayout.reshape_rowvec_apply, step4 m ρ c main_arg4 (by decide), at3_launch m ρ c main_arg4 (by decide) (by decide) (by decide)]

/-- The first scale, as a row. -/
theorem g1_row (q : Fin 96) : W5 m ρ c (Proc.devRef .tc main_v47) (ix2 (0 : Fin 1) q) = (m ((c : Thread nD τ).loc main_arg9)) (ix1 q) := by
  have e : W5 m ρ c (Proc.devRef .tc main_v47) = shapeCast S1x96 (W4 m ρ c (Proc.devRef .tc main_arg9)) shapeCasts_S96_S1x96 := by
    show StableHlo.after hostOps1 (W4 m ρ c) (Proc.devRef .tc main_v47) = _
    generalize hV : W4 m ρ c = V
    after_results
    subst hV
    rfl
  rw [e, Cert.HostLayout.reshape_rowvec_apply, step4 m ρ c main_arg9 (by decide), at3_launch m ρ c main_arg9 (by decide) (by decide) (by decide)]

/-- The first shift, as a row. -/
theorem beta1_row (q : Fin 96) : W5 m ρ c (Proc.devRef .tc main_v48) (ix2 (0 : Fin 1) q) = (m ((c : Thread nD τ).loc main_arg10)) (ix1 q) := by
  have e : W5 m ρ c (Proc.devRef .tc main_v48) = shapeCast S1x96 (W4 m ρ c (Proc.devRef .tc main_arg10)) shapeCasts_S96_S1x96 := by
    show StableHlo.after hostOps1 (W4 m ρ c) (Proc.devRef .tc main_v48) = _
    generalize hV : W4 m ρ c = V
    after_results
    subst hV
    rfl
  rw [e, Cert.HostLayout.reshape_rowvec_apply, step4 m ρ c main_arg10 (by decide), at3_launch m ρ c main_arg10 (by decide) (by decide) (by decide)]

/-- The first stored mean, as a row. -/
theorem mean1_row (q : Fin 96) : W5 m ρ c (Proc.devRef .tc main_v49) (ix2 (0 : Fin 1) q) = (m ((c : Thread nD τ).loc main_arg11)) (ix1 q) := by
  have e : W5 m ρ c (Proc.devRef .tc main_v49) = shapeCast S1x96 (W4 m ρ c (Proc.devRef .tc main_arg11)) shapeCasts_S96_S1x96 := by
    show StableHlo.after hostOps1 (W4 m ρ c) (Proc.devRef .tc main_v49) = _
    generalize hV : W4 m ρ c = V
    after_results
    subst hV
    rfl
  rw [e, Cert.HostLayout.reshape_rowvec_apply, step4 m ρ c main_arg11 (by decide), at3_launch m ρ c main_arg11 (by decide) (by decide) (by decide)]

/-- The first stored variance, as a row. -/
theorem var1_row (q : Fin 96) : W5 m ρ c (Proc.devRef .tc main_v50) (ix2 (0 : Fin 1) q) = (m ((c : Thread nD τ).loc main_arg12)) (ix1 q) := by
  have e : W5 m ρ c (Proc.devRef .tc main_v50) = shapeCast S1x96 (W4 m ρ c (Proc.devRef .tc main_arg12)) shapeCasts_S96_S1x96 := by
    show StableHlo.after hostOps1 (W4 m ρ c) (Proc.devRef .tc main_v50) = _
    generalize hV : W4 m ρ c = V
    after_results
    subst hV
    rfl
  rw [e, Cert.HostLayout.reshape_rowvec_apply, step4 m ρ c main_arg12 (by decide), at3_launch m ρ c main_arg12 (by decide) (by decide) (by decide)]

/-- The first hidden layer: bias, standardise, scale, shift, clamp. -/
theorem h1_eq : W6 m ρ c (Proc.devRef .tc main_v51) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) := by
  refine (W6_arr m ρ c 6).trans ?_
  funext i
  obtain ⟨p, q, rfl⟩ : ∃ (p : Fin 50000) (q : Fin 96), i = ix2 p q := ⟨i 0, i 1, eq_ix2 i⟩
  refine (Reg.bn1_at (V5 m ρ) c p q).trans ?_
  rw [Cert.Gcn.RefRead.bn1_at]
  show Cert.Gcn.bn (W5 m ρ c (Proc.devRef .tc main_v45) (ix2 p q)) (W5 m ρ c (Proc.devRef .tc main_v46) (ix2 (0 : Fin 1) q))
    (W5 m ρ c (Proc.devRef .tc main_v47) (ix2 (0 : Fin 1) q)) (W5 m ρ c (Proc.devRef .tc main_v48) (ix2 (0 : Fin 1) q))
    (W5 m ρ c (Proc.devRef .tc main_v49) (ix2 (0 : Fin 1) q)) (W5 m ρ c (Proc.devRef .tc main_v50) (ix2 (0 : Fin 1) q)) = _
  rw [agg1_eq, b1_row, g1_row, beta1_row, mean1_row, var1_row]

end Cert.KernelIdeal.Layers

end
-- ==== Proof.KRegLin2.lean ====
/-
  The second matrix-product region, read entry by entry.

  The region walks the 50000 rows of the first hidden layer's activations in ten blocks of 5000 rows.  At each block
  it multiplies the block by the transpose of the whole 96 by 96 weight matrix and writes the product into the same
  rows of the result.  Entry (p, c) of a block's product needs row p of the block, all of it, and row c of the weight,
  so the block is not a pointwise function of the left block; it is the restriction to the block's rows of ONE function
  of the two whole arrays: entry (r, c) is row r of the activations against row c of the weight.  The ten blocks tile
  the result, so the result array is that function everywhere.
-/
import proofs.«136577_j41128606826857_1_alg».proof.Proof.Gen.KernelIdeal.Frame
import proofs.«136577_j41128606826857_1_alg».proof.Proof.GcnSpec
import proofs.«136577_j41128606826857_1_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

/-- The all-zero offset of a whole-buffer access. -/
theorem zeroOff2 : (![0, 0] : Fin 2 → Nat) = fun _ => 0 := funext fun a => by fin_cases a <;> rfl

/-- The result as one function of the two whole arrays: entry i is row (i 0) of x against row (i 1) of w. -/
def lin2 (x : S50000x96.Idx → EReal) (w : S96x96.Idx → EReal) : S50000x96.Idx → EReal :=
  fun i => Cert.Gcn.linAt x w (⟨(i 0).val, (i 0).isLt⟩ : Fin 50000) (⟨(i 1).val, (i 1).isLt⟩ : Fin 96)

/-- One block's product at entry (p, q): row p of the left block against row q of the weight block.  The cast to
    the block's own shape and the two narrowings are the identity on extended reals, the transposed weight at (k, q)
    is the weight at (q, k), and the product accumulated into zero is the plain sum over the shared axis. -/
theorem pay2_at (x0 : Vec Ideal S5000x96 .f32) (x1 : Vec Ideal S96x96 .f32) (p : Fin 5000) (q : Fin 96) :
    k2_pay1 (F := Ideal) x0 x1 (ix2 p q) = ∑ k : Fin 96, x0 (ix2 p k) * x1 (ix2 q k) := by
  unfold k2_pay1
  show matmul dot_S5000x96_S96x96_S5000x96_1_0_0_1_n_n none
      (truncf .bf16 (shapeCast S5000x96 x0 shapeCasts_S5000x96_S5000x96) bitsLt_bf16_f32)
      (transpose S96x96 [1, 0] (truncf .bf16 x1 bitsLt_bf16_f32) transposes_S96x96_p1_0_S96x96)
      (constant (F := Ideal) S5000x96 .f32 0x00000000#32) (ix2 p q) = _
  rw [shapeCast_self]
  rw [show dot_S5000x96_S96x96_S5000x96_1_0_0_1_n_n = DotDims.plain 5000 96 96 from rfl]
  rw [MatRows.matmul_plain_apply]
  refine Finset.sum_congr rfl fun k _ => ?_
  rw [transpose_apply [1, 0] _ transposes_S96x96_p1_0_S96x96 (ix2 k q) (ix2 q k)
    (fun b => by match b with | ⟨0, _⟩ => rfl | ⟨1, _⟩ => rfl)]
  rfl

/-- The block written at block-row n, as the restriction of `lin2`: if the left block holds rows n·5000 … of X
    and the weight block holds all of W, then entry j of the block's product is `lin2 X W` at the entry of the array
    that j sits on. -/
theorem blk2_at (X : S50000x96.Idx → EReal) (W : S96x96.Idx → EReal)
    (x0 : Vec Ideal S5000x96 .f32) (x1 : Vec Ideal S96x96 .f32) (n : Nat)
    (h0 : ∀ (p : Fin 5000) (k : Fin 96) (r : Fin 50000), r.val = n * 5000 + p.val → x0 (ix2 p k) = X (ix2 r k))
    (h1 : ∀ (q : Fin 96) (k : Fin 96), x1 (ix2 q k) = W (ix2 q k))
    (j : S5000x96.Idx) (i : S50000x96.Idx)
    (hi0 : (i 0).val = n * 5000 + (j 0).val) (hi1 : (i 1).val = (j 1).val) :
    k2_pay1 (F := Ideal) x0 x1 j = lin2 X W i := by
  obtain ⟨p, q, rfl⟩ : ∃ (p : Fin 5000) (q : Fin 96), j = ix2 p q := ⟨j 0, j 1, eq_ix2 j⟩
  rw [pay2_at]
  unfold lin2 Cert.Gcn.linAt
  refine Finset.sum_congr rfl fun k _ => ?_
  rw [h0 p k ⟨(i 0).val, (i 0).isLt⟩ hi0, h1 q k]
  have hq : (⟨(i 1).val, (i 1).isLt⟩ : Fin 96) = q := Fin.ext hi1
  rw [hq]

/-- The block indices at each of the ten points: the left window's row block is the result window's and its column
    block is 0, the weight window sits at block (0, 0), and the result's row block is below 10. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row block of the result is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of `lin2` of the two arrays as the region finds them. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (lin2 (V c main_v51) (V c main_arg5)) := by
  show (cfg2.win 2).cut (grid2.coords t) ((dat2 (F := Ideal) V c).after 2 t) = _
  rw [after2_2]
  unfold out2_2
  rw [View.canon_unit_zero zeroOff2]
  simp only [View.ld_unit_zero (S := S5000x96) zeroOff2, View.ld_unit_zero (S := S96x96) zeroOff2]
  obtain ⟨e0, e1, e2, e3, e4, e5⟩ := idx_facts2 t
  funext j
  show k2_pay1 (F := Ideal) (iblk2 V c 0 t) (iblk2 V c 1 t) j
    = lin2 (V c main_v51) (V c main_arg5) (((cfg2.win 2).blk t).view.emb j)
  refine blk2_at (V c main_v51) (V c main_arg5) (iblk2 V c 0 t) (iblk2 V c 1 t) (win2_2.index t (0 : Fin 2))
    ?_ ?_ j _ ?_ ?_
  · intro p k r hr
    show V c main_v51 (((cfg2.win 0).blk t).view.emb (ix2 p k)) = V c main_v51 (ix2 r k)
    refine congrArg (V c main_v51) (funext fun a => Fin.ext ?_)
    match a with
    | ⟨0, _⟩ => show win2_0.index t (0 : Fin 2) * 5000 + 1 * p.val = r.val; omega
    | ⟨1, _⟩ => show win2_0.index t (1 : Fin 2) * 96 + 1 * k.val = k.val; omega
  · intro q k
    show V c main_arg5 (((cfg2.win 1).blk t).view.emb (ix2 q k)) = V c main_arg5 (ix2 q k)
    refine congrArg (V c main_arg5) (funext fun a => Fin.ext ?_)
    match a with
    | ⟨0, _⟩ => show win2_1.index t (0 : Fin 2) * 96 + 1 * q.val = q.val; omega
    | ⟨1, _⟩ => show win2_1.index t (1 : Fin 2) * 96 + 1 * k.val = k.val; omega
  · show win2_2.index t (0 : Fin 2) * 5000 + 1 * (j 0).val = win2_2.index t (0 : Fin 2) * 5000 + (j 0).val; omega
  · show win2_2.index t (1 : Fin 2) * 96 + 1 * (j 1).val = (j 1).val; omega

/-- An entry of the result is in point t's block iff each coordinate is in the block's range on its axis. -/
theorem mem_blk2 (t : Fin cfg2.N) (i : S50000x96.Idx) :
    i ∈ ((cfg2.win 2).blk t).view.set ↔ ∀ a : Fin 2, win2_2.index t a * S5000x96.size a ≤ (i a).val
      ∧ (i a).val < win2_2.index t a * S5000x96.size a + S5000x96.size a := by
  show i ∈ ((View.whole main_v52).slice (win2_2.rect t)).set ↔ _
  rw [View.set_slice_whole, Rect.mem_set_unit]
  exact Iff.rfl

/-- The ten blocks cover the result: row r is in the block of point r / 5000. -/
theorem cover2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 96 ≤ (i 1).val ∧ (i 1).val < win2_2.index t (1 : Fin 2) * 96 + 96
    omega

/-- The result array after the region is `lin2` of the two arrays as the region finds them. -/
theorem final2 (V : (c : Dev nD) → (b : Ref sig .tc) → Buf (Elt Ideal) ((c : Thread nD τ).loc b)) (c : Dev nD) :
    (dat2 (F := Ideal) V c).arrAt 2 cfg2.N = lin2 (V c main_v51) (V c main_arg5) :=
  (dat2 (F := Ideal) V c).arrAt_eq_of_cover 2 (lin2 (V c main_v51) (V c main_arg5))
    (fun t _ => flushed2_eq V c t) cover2

/-- The result array after the region, at entry (p, q): row p of the first hidden layer's activations against row q of the weight. -/
theorem lin2_at (V : (c : Dev nD) → (b : Ref sig .tc) → Buf (Elt Ideal) ((c : Thread nD τ).loc b)) (c : Dev nD)
    (p : Fin 50000) (q : Fin 96) :
    (Gen.dat2 (F := Ideal) V c).arrAt 2 cfg2.N (ix2 p q) = Cert.Gcn.linAt (V c main_v51) (V c main_arg5) p q :=
  congrFun (final2 V c) (ix2 p q)

end Cert.KernelIdeal.Reg

end
-- ==== Proof.KRegBn3.lean ====
/-
  The second standardise-and-clamp region of the kernel, read entry by entry.

  The region walks the 50000 rows of the aggregated array in ten blocks of 5000 rows.  On each block it adds the bias
  row, subtracts the mean row, multiplies by the reciprocal square root of the variance row shifted by a small positive
  constant, scales by the gain row, adds the offset row and clamps from below at zero.  The five rows are one and the
  same row of 96 numbers at every block.  Row r of the array lies in block r / 5000 and in no other, so the array the
  region leaves holds, at row p and column q, that arithmetic of entry (p, q) of the aggregated array and of entry q of
  each of the five rows.
-/
import proofs.«136577_j41128606826857_1_alg».proof.Proof.Gen.KernelIdeal.Frame
import proofs.«136577_j41128606826857_1_alg».proof.Proof.GcnSpec
import Idealize.ShloMosaic.Lib.Pipeline.Value
import Idealize.ShloMosaic.Lib.ValueIdx
import Idealize.ShloMosaic.Lib.ValueLayout

noncomputable section

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The two zero offsets of a whole-block access, as a constant function. -/
theorem zeroOff3 : (![0, 0] : Fin 2 → Nat) = fun _ => 0 := funext fun a => by fin_cases a <;> rfl

/-- A reciprocal square root of a block, at an entry, is that of the entry. -/
theorem rsqrt_at3 {s : Shape} {φ : FTy} (a : FVec Ideal s φ) (i : s.Idx) : rsqrt a i = Ideal.rsqrt (a i) := rfl

/-- Two blocks of 5000 rows of 96 numbers that agree at every row and column are equal. -/
theorem ext_block3 {X Y : S5000x96.Idx → EReal} (h : ∀ (r : Fin 5000) (q : Fin 96), X (ix2 r q) = Y (ix2 r q)) : X = Y :=
  funext fun j => by rw [eq_ix2 j]; exact h _ _

/-- What the body computes on one block, at row r and column q of the block: the standardise-and-clamp of the
    block's entry with entry q of each row. -/
theorem bn3_block_at (b mean var g beta : Vec Ideal S1x96 .f32) (agg : Vec Ideal S5000x96 .f32) (r : Fin 5000) (q : Fin 96) :
    k3_pay1 (F := Ideal) b mean var g beta agg (ix2 r q)
      = Cert.Gcn.bn (agg (ix2 r q)) (b (ix2 (0 : Fin 1) q)) (g (ix2 (0 : Fin 1) q)) (beta (ix2 (0 : Fin 1) q))
          (mean (ix2 (0 : Fin 1) q)) (var (ix2 (0 : Fin 1) q)) := by
  unfold k3_pay1
  simp only [shapeCast_self, maximumf_apply, addf_apply, mulf_apply, subf_apply, rsqrt_at3, broadcast_apply,
    broadcastTo_1b_ab_apply]
  rfl

/-- The array the region leaves, as one function of the arrays it reads: entry (p, q) is the standardise-and-clamp
    of entry (p, q) of the aggregated array with entry q of the bias, gain, offset, mean and variance rows. -/
def bn3Arr (a : S50000x96.Idx → EReal) (b g beta mean var : S1x96.Idx → EReal) : S50000x96.Idx → EReal :=
  fun i => Cert.Gcn.bn (a i) (b (ix2 (0 : Fin 1) (i 1 : Fin 96))) (g (ix2 (0 : Fin 1) (i 1 : Fin 96)))
    (beta (ix2 (0 : Fin 1) (i 1 : Fin 96))) (mean (ix2 (0 : Fin 1) (i 1 : Fin 96))) (var (ix2 (0 : Fin 1) (i 1 : Fin 96)))

/-- The block indices at a point of the grid, decided over its ten points: the aggregated array's block and the
    output's block are the point's own, in the one column block; each row's block is the row itself. -/
theorem bn3_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r, column q of a point's block of the aggregated array is where row r, column q of its output block is. -/
theorem bn3_emb0 (t : Fin cfg3.N) (r : Fin 5000) (q : Fin 96) :
    ((cfg3.win 0).blk t).view.emb (ix2 r q) = ((cfg3.win 6).blk t).view.emb (ix2 r q) := by
  obtain ⟨e00, e01, e10, e11, e20, e21, e30, e31, e40, e41, e50, e51, e60, e61⟩ := bn3_maps t
  funext a; apply Fin.ext
  match a with
  | ⟨0, _⟩ => show win3_0.index t (0 : Fin 2) * 5000 + 1 * r.val = win3_6.index t (0 : Fin 2) * 5000 + 1 * r.val; omega
  | ⟨1, _⟩ => show win3_0.index t (1 : Fin 2) * 96 + 1 * q.val = win3_6.index t (1 : Fin 2) * 96 + 1 * q.val; omega

/-- Column q of a point's block of row array 1 is column q of the one row, the column of the output block's entry (r, q). -/
theorem bn3_emb1 (t : Fin cfg3.N) (r : Fin 5000) (q : Fin 96) :
    ((cfg3.win 1).blk t).view.emb (ix2 (0 : Fin 1) q) = ix2 (0 : Fin 1) ((((cfg3.win 6).blk t).view.emb (ix2 r q)) 1 : Fin 96) := by
  obtain ⟨e00, e01, e10, e11, e20, e21, e30, e31, e40, e41, e50, e51, e60, e61⟩ := bn3_maps t
  funext a; apply Fin.ext
  match a with
  | ⟨0, _⟩ => show win3_1.index t (0 : Fin 2) * 1 + 1 * 0 = 0; omega
  | ⟨1, _⟩ => show win3_1.index t (1 : Fin 2) * 96 + 1 * q.val = win3_6.index t (1 : Fin 2) * 96 + 1 * q.val; omega

/-- Column q of a point's block of row array 2 is column q of the one row, the column of the output block's entry (r, q). -/
theorem bn3_emb2 (t : Fin cfg3.N) (r : Fin 5000) (q : Fin 96) :
    ((cfg3.win 2).blk t).view.emb (ix2 (0 : Fin 1) q) = ix2 (0 : Fin 1) ((((cfg3.win 6).blk t).view.emb (ix2 r q)) 1 : Fin 96) := by
  obtain ⟨e00, e01, e10, e11, e20, e21, e30, e31, e40, e41, e50, e51, e60, e61⟩ := bn3_maps t
  funext a; apply Fin.ext
  match a with
  | ⟨0, _⟩ => show win3_2.index t (0 : Fin 2) * 1 + 1 * 0 = 0; omega
  | ⟨1, _⟩ => show win3_2.index t (1 : Fin 2) * 96 + 1 * q.val = win3_6.index t (1 : Fin 2) * 96 + 1 * q.val; omega

/-- Column q of a point's block of row array 3 is column q of the one row, the column of the output block's entry (r, q). -/
theorem bn3_emb3 (t : Fin cfg3.N) (r : Fin 5000) (q : Fin 96) :
    ((cfg3.win 3).blk t).view.emb (ix2 (0 : Fin 1) q) = ix2 (0 : Fin 1) ((((cfg3.win 6).blk t).view.emb (ix2 r q)) 1 : Fin 96) := by
  obtain ⟨e00, e01, e10, e11, e20, e21, e30, e31, e40, e41, e50, e51, e60, e61⟩ := bn3_maps t
  funext a; apply Fin.ext
  match a with
  | ⟨0, _⟩ => show win3_3.index t (0 : Fin 2) * 1 + 1 * 0 = 0; omega
  | ⟨1, _⟩ => show win3_3.index t (1 : Fin 2) * 96 + 1 * q.val = win3_6.index t (1 : Fin 2) * 96 + 1 * q.val; omega

/-- Column q of a point's block of row array 4 is column q of the one row, the column of the output block's entry (r, q). -/
theorem bn3_emb4 (t : Fin cfg3.N) (r : Fin 5000) (q : Fin 96) :
    ((cfg3.win 4).blk t).view.emb (ix2 (0 : Fin 1) q) = ix2 (0 : Fin 1) ((((cfg3.win 6).blk t).view.emb (ix2 r q)) 1 : Fin 96) := by
  obtain ⟨e00, e01, e10, e11, e20, e21, e30, e31, e40, e41, e50, e51, e60, e61⟩ := bn3_maps t
  funext a; apply Fin.ext
  match a with
  | ⟨0, _⟩ => show win3_4.index t (0 : Fin 2) * 1 + 1 * 0 = 0; omega
  | ⟨1, _⟩ => show win3_4.index t (1 : Fin 2) * 96 + 1 * q.val = win3_6.index t (1 : Fin 2) * 96 + 1 * q.val; omega

/-- Column q of a point's block of row array 5 is column q of the one row, the column of the output block's entry (r, q). -/
theorem bn3_emb5 (t : Fin cfg3.N) (r : Fin 5000) (q : Fin 96) :
    ((cfg3.win 5).blk t).view.emb (ix2 (0 : Fin 1) q) = ix2 (0 : Fin 1) ((((cfg3.win 6).blk t).view.emb (ix2 r q)) 1 : Fin 96) := by
  obtain ⟨e00, e01, e10, e11, e20, e21, e30, e31, e40, e41, e50, e51, e60, e61⟩ := bn3_maps t
  funext a; apply Fin.ext
  match a with
  | ⟨0, _⟩ => show win3_5.index t (0 : Fin 2) * 1 + 1 * 0 = 0; omega
  | ⟨1, _⟩ => show win3_5.index t (1 : Fin 2) * 96 + 1 * q.val = win3_6.index t (1 : Fin 2) * 96 + 1 * q.val; omega

/-- The standardise-and-clamp of entries read at equal indices is the same number. -/
theorem bn3_congr (A : S50000x96.Idx → EReal) (B G Be M Va : S1x96.Idx → EReal) {i i' : S50000x96.Idx}
    {j1 j2 j3 j4 j5 j : S1x96.Idx} (h0 : i = i') (h1 : j1 = j) (h2 : j2 = j) (h3 : j3 = j) (h4 : j4 = j) (h5 : j5 = j) :
    Cert.Gcn.bn (A i) (B j1) (G j2) (Be j3) (M j4) (Va j5) = Cert.Gcn.bn (A i') (B j) (G j) (Be j) (M j) (Va j) := by
  subst h0 h1 h2 h3 h4 h5; rfl

/-- What a point of the grid writes back is its block of that one function of the arrays the region reads. -/
theorem bn3_written (c : Dev nD) (t : Fin cfg3.N) :
    (dat3 (F := Ideal) V c).flushed 6 t = ((cfg3.win 6).blk t).view.read (Elt Ideal)
      (bn3Arr (V c main_v65) (V c main_v66) (V c main_v67) (V c main_v68) (V c main_v69) (V c main_v70)) := by
  show (cfg3.win 6).cut (grid3.coords t) ((dat3 V c).after 6 t) = _
  rw [after3_6]
  unfold out3_6
  rw [View.canon_unit_zero zeroOff3]
  simp only [View.ld_unit_zero (S := S1x96) zeroOff3, View.ld_unit_zero (S := S5000x96) zeroOff3]
  refine ext_block3 fun r q => ?_
  show k3_pay1 (F := Ideal) (iblk3 V c 1 t) (iblk3 V c 4 t) (iblk3 V c 5 t) (iblk3 V c 2 t) (iblk3 V c 3 t) (iblk3 V c 0 t) (ix2 r q) = _
  rw [bn3_block_at]
  exact bn3_congr (V c main_v65) (V c main_v66) (V c main_v67) (V c main_v68) (V c main_v69) (V c main_v70)
    (bn3_emb0 t r q) (bn3_emb1 t r q) (bn3_emb2 t r q) (bn3_emb3 t r q) (bn3_emb4 t r q) (bn3_emb5 t r q)

/-- An index of the array is in a point's block iff each coordinate is in the block's range on its axis. -/
theorem bn3_mem_block (t : Fin cfg3.N) (i : S50000x96.Idx) :
    i ∈ ((cfg3.win 6).blk t).view.set ↔ ∀ a : Fin 2, win3_6.index t a * S5000x96.size a ≤ (i a).val ∧ (i a).val < win3_6.index t a * S5000x96.size a + S5000x96.size a := by
  show i ∈ ((View.whole main_v71).slice (win3_6.rect t)).set ↔ _
  rw [View.set_slice_whole, Rect.mem_set_unit]
  exact Iff.rfl

/-- Every index of the array is in the block of the point its row, divided by 5000, names. -/
theorem bn3_cover (i : S50000x96.Idx) :
    ∃ t : Fin cfg3.N, (cfg3.win 6).flush t = true ∧ i ∈ ((cfg3.win 6).blk t).view.set := by
  have hi0 : (i 0).val < 50000 := (i 0).isLt
  have hi1 : (i 1).val < 96 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51, e60, e61⟩ := bn3_maps t
  refine ⟨t, flush3_6 t, ?_⟩
  rw [bn3_mem_block]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 96 ≤ (i 1).val ∧ (i 1).val < win3_6.index t (1 : Fin 2) * 96 + 96; omega

/-- The array after the region is that one function of the arrays the region reads. -/
theorem bn3_array (c : Dev nD) :
    (dat3 (F := Ideal) V c).arrAt 6 cfg3.N
      = bn3Arr (V c main_v65) (V c main_v66) (V c main_v67) (V c main_v68) (V c main_v69) (V c main_v70) :=
  (dat3 (F := Ideal) V c).arrAt_eq_of_cover 6 _ (fun t _ => bn3_written V c t) bn3_cover

/-- Entry (p, q) of the array after the region. -/
theorem bn3_at (c : Dev nD) (p : Fin 50000) (q : Fin 96) :
    (Gen.dat3 (F := Ideal) V c).arrAt 6 cfg3.N (ix2 p q)
      = Cert.Gcn.bn (V c main_v65 (ix2 p q)) (V c main_v66 (ix2 (0 : Fin 1) q)) (V c main_v67 (ix2 (0 : Fin 1) q))
          (V c main_v68 (ix2 (0 : Fin 1) q)) (V c main_v69 (ix2 (0 : Fin 1) q)) (V c main_v70 (ix2 (0 : Fin 1) q)) :=
  congrFun (bn3_array V c) (ix2 p q)

end Cert.KernelIdeal.Reg

end
-- ==== Proof.KLayer2.lean ====
/-
  The second layer.

  The same three steps as in the first layer, on the first hidden layer's output: a launch multiplies by the transposed
  second weight matrix where the reference uses one host product; the rows are gathered, scaled and added along the
  edges by the same host operations, with the edge arrays made before the first launch and untouched since; a launch
  adds the bias, standardises, scales, shifts and clamps where the reference uses host operations on whole arrays.
-/
import proofs.«136577_j41128606826857_1_alg».proof.Proof.Gen.KernelIdeal.Frame
import proofs.«136577_j41128606826857_1_alg».proof.Proof.Gen.ReferenceIdeal.Read
import proofs.«136577_j41128606826857_1_alg».proof.Proof.GcnSpec
import proofs.«136577_j41128606826857_1_alg».proof.Proof.LibHostLayout
import proofs.«136577_j41128606826857_1_alg».proof.Proof.KCarry
import proofs.«136577_j41128606826857_1_alg».proof.Proof.KPre
import proofs.«136577_j41128606826857_1_alg».proof.Proof.KLayer1
import proofs.«136577_j41128606826857_1_alg».proof.Proof.RefRead
import proofs.«136577_j41128606826857_1_alg».proof.Proof.KRegLin2
import proofs.«136577_j41128606826857_1_alg».proof.Proof.KRegBn3

noncomputable section

namespace Cert.KernelIdeal.Layers

open Cert.KernelIdeal Cert.KernelIdeal.Gen Cert.KernelIdeal.Carry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first hidden layer times the transposed second weights. -/
theorem xw2_eq : W7 m ρ c (Proc.devRef .tc main_v52) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  refine (W7_arr m ρ c 2).trans ?_
  funext i
  obtain ⟨p, q, rfl⟩ : ∃ (p : Fin 50000) (q : Fin 96), i = ix2 p q := ⟨i 0, i 1, eq_ix2 i⟩
  refine (Reg.lin2_at (V6 m ρ) c p q).trans ?_
  rw [Cert.Gcn.RefRead.lin2_at]
  show Cert.Gcn.linAt (W6 m ρ c (Proc.devRef .tc main_v51)) (W6 m ρ c (Proc.devRef .tc main_arg5)) p q = _
  rw [h1_eq, from6 m ρ c main_arg5 (by decide) (by decide) (by decide), at3_launch m ρ c main_arg5 (by decide) (by decide) (by decide)]

set_option maxRecDepth 100000 in
set_option maxHeartbeats 2000000 in
/-- The second layer's rows gathered along the edges, scaled and added up at the targets. -/
theorem agg2_eq : W8 m ρ c (Proc.devRef .tc main_v65) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  show StableHlo.after hostOps3 (W7 m ρ c) (Proc.devRef .tc main_v65) = _
  generalize hV : W7 m ρ c = V
  after_results
  subst hV
  rw [xw2_eq, from7 m ρ c main_v31 (by decide) (by decide) (by decide) (by decide), norm_eq, from7 m ρ c main_v3 (by decide) (by decide) (by decide) (by decide), row_eq, from7 m ρ c main_v6 (by decide) (by decide) (by decide) (by decide), col_eq]
  rfl

/-- The second bias, as a row. -/
theorem b2_row (q : Fin 96) : W8 m ρ c (Proc.devRef .tc main_v66) (ix2 (0 : Fin 1) q) = (m ((c : Thread nD τ).loc main_arg6)) (ix1 q) := by
  have e : W8 m ρ c (Proc.devRef .tc main_v66) = shapeCast S1x96 (W7 m ρ c (Proc.devRef .tc main_arg6)) shapeCasts_S96_S1x96 := by
    show StableHlo.after hostOps3 (W7 m ρ c) (Proc.devRef .tc main_v66) = _
    generalize hV : W7 m ρ c = V
    after_results
    subst hV
    rfl
  rw [e, Cert.HostLayout.reshape_rowvec_apply, from7 m ρ c main_arg6 (by decide) (by decide) (by decide) (by decide), at3_launch m ρ c main_arg6 (by decide) (by decide) (by decide)]

/-- The second scale, as a row. -/
theorem g2_row (q : Fin 96) : W8 m ρ c (Proc.devRef .tc main_v67) (ix2 (0 : Fin 1) q) = (m ((c : Thread nD τ).loc main_arg13)) (ix1 q) := by
  have e : W8 m ρ c (Proc.devRef .tc main_v67) = shapeCast S1x96 (W7 m ρ c (Proc.devRef .tc main_arg13)) shapeCasts_S96_S1x96 := by
    show StableHlo.after hostOps3 (W7 m ρ c) (Proc.devRef .tc main_v67) = _
    generalize hV : W7 m ρ c = V
    after_results
    subst hV
    rfl
  rw [e, Cert.HostLayout.reshape_rowvec_apply, from7 m ρ c main_arg13 (by decide) (by decide) (by decide) (by decide), at3_launch m ρ c main_arg13 (by decide) (by decide) (by decide)]

/-- The second shift, as a row. -/
theorem beta2_row (q : Fin 96) : W8 m ρ c (Proc.devRef .tc main_v68) (ix2 (0 : Fin 1) q) = (m ((c : Thread nD τ).loc main_arg14)) (ix1 q) := by
  have e : W8 m ρ c (Proc.devRef .tc main_v68) = shapeCast S1x96 (W7 m ρ c (Proc.devRef .tc main_arg14)) shapeCasts_S96_S1x96 := by
    show StableHlo.after hostOps3 (W7 m ρ c) (Proc.devRef .tc main_v68) = _
    generalize hV : W7 m ρ c = V
    after_results
    subst hV
    rfl
  rw [e, Cert.HostLayout.reshape_rowvec_apply, from7 m ρ c main_arg14 (by decide) (by decide) (by decide) (by decide), at3_launch m ρ c main_arg14 (by decide) (by decide) (by decide)]

/-- The second stored mean, as a row. -/
theorem mean2_row (q : Fin 96) : W8 m ρ c (Proc.devRef .tc main_v69) (ix2 (0 : Fin 1) q) = (m ((c : Thread nD τ).loc main_arg15)) (ix1 q) := by
  have e : W8 m ρ c (Proc.devRef .tc main_v69) = shapeCast S1x96 (W7 m ρ c (Proc.devRef .tc main_arg15)) shapeCasts_S96_S1x96 := by
    show StableHlo.after hostOps3 (W7 m ρ c) (Proc.devRef .tc main_v69) = _
    generalize hV : W7 m ρ c = V
    after_results
    subst hV
    rfl
  rw [e, Cert.HostLayout.reshape_rowvec_apply, from7 m ρ c main_arg15 (by decide) (by decide) (by decide) (by decide), at3_launch m ρ c main_arg15 (by decide) (by decide) (by decide)]

/-- The second stored variance, as a row. -/
theorem var2_row (q : Fin 96) : W8 m ρ c (Proc.devRef .tc main_v70) (ix2 (0 : Fin 1) q) = (m ((c : Thread nD τ).loc main_arg16)) (ix1 q) := by
  have e : W8 m ρ c (Proc.devRef .tc main_v70) = shapeCast S1x96 (W7 m ρ c (Proc.devRef .tc main_arg16)) shapeCasts_S96_S1x96 := by
    show StableHlo.after hostOps3 (W7 m ρ c) (Proc.devRef .tc main_v70) = _
    generalize hV : W7 m ρ c = V
    after_results
    subst hV
    rfl
  rw [e, Cert.HostLayout.reshape_rowvec_apply, from7 m ρ c main_arg16 (by decide) (by decide) (by decide) (by decide), at3_launch m ρ c main_arg16 (by decide) (by decide) (by decide)]

/-- The second hidden layer: bias, standardise, scale, shift, clamp. -/
theorem h2_eq : W9 m ρ c (Proc.devRef .tc main_v71) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W9_arr m ρ c 6).trans ?_
  funext i
  obtain ⟨p, q, rfl⟩ : ∃ (p : Fin 50000) (q : Fin 96), i = ix2 p q := ⟨i 0, i 1, eq_ix2 i⟩
  refine (Reg.bn3_at (V8 m ρ) c p q).trans ?_
  rw [Cert.Gcn.RefRead.bn2_at]
  show Cert.Gcn.bn (W8 m ρ c (Proc.devRef .tc main_v65) (ix2 p q)) (W8 m ρ c (Proc.devRef .tc main_v66) (ix2 (0 : Fin 1) q))
    (W8 m ρ c (Proc.devRef .tc main_v67) (ix2 (0 : Fin 1) q)) (W8 m ρ c (Proc.devRef .tc main_v68) (ix2 (0 : Fin 1) q))
    (W8 m ρ c (Proc.devRef .tc main_v69) (ix2 (0 : Fin 1) q)) (W8 m ρ c (Proc.devRef .tc main_v70) (ix2 (0 : Fin 1) q)) = _
  rw [agg2_eq, b2_row, g2_row, beta2_row, mean2_row, var2_row]

end Cert.KernelIdeal.Layers

end
-- ==== Proof.KRegLin4.lean ====
/-
  The third matrix-product region, read entry by entry.

  The region walks the 50000 rows of the second hidden layer's activations in ten blocks of 5000 rows.  At each block
  it multiplies the block by the transpose of the whole 64 by 96 weight matrix and writes the product into the same
  rows of the 64-column result.  Entry (p, c) of a block's product needs row p of the block, all of it, and row c of
  the weight, so the block is not a pointwise function of the left block; it is the restriction to the block's rows of
  ONE function of the two whole arrays: entry (r, c) is row r of the activations against row c of the weight.  The ten
  blocks tile the result, so the result array is that function everywhere.
-/
import proofs.«136577_j41128606826857_1_alg».proof.Proof.Gen.KernelIdeal.Frame
import proofs.«136577_j41128606826857_1_alg».proof.Proof.GcnSpec
import proofs.«136577_j41128606826857_1_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

/-- The all-zero offset of a whole-buffer access. -/
theorem zeroOff4 : (![0, 0] : Fin 2 → Nat) = fun _ => 0 := funext fun a => by fin_cases a <;> rfl

/-- The result as one function of the two whole arrays: entry i is row (i 0) of x against row (i 1) of w. -/
def lin4 (x : S50000x96.Idx → EReal) (w : S64x96.Idx → EReal) : S50000x64.Idx → EReal :=
  fun i => Cert.Gcn.linAt x w (⟨(i 0).val, (i 0).isLt⟩ : Fin 50000) (⟨(i 1).val, (i 1).isLt⟩ : Fin 64)

/-- One block's product at entry (p, q): row p of the left block against row q of the weight block.  The cast to
    the block's own shape and the two narrowings are the identity on extended reals, the transposed weight at (k, q)
    is the weight at (q, k), and the product accumulated into zero is the plain sum over the shared axis. -/
theorem pay4_at (x0 : Vec Ideal S5000x96 .f32) (x1 : Vec Ideal S64x96 .f32) (p : Fin 5000) (q : Fin 64) :
    k4_pay1 (F := Ideal) x0 x1 (ix2 p q) = ∑ k : Fin 96, x0 (ix2 p k) * x1 (ix2 q k) := by
  unfold k4_pay1
  show matmul dot_S5000x96_S96x64_S5000x64_1_0_0_1_n_n none
      (truncf .bf16 (shapeCast S5000x96 x0 shapeCasts_S5000x96_S5000x96) bitsLt_bf16_f32)
      (transpose S96x64 [1, 0] (truncf .bf16 x1 bitsLt_bf16_f32) transposes_S64x96_p1_0_S96x64)
      (constant (F := Ideal) S5000x64 .f32 0x00000000#32) (ix2 p q) = _
  rw [shapeCast_self]
  rw [show dot_S5000x96_S96x64_S5000x64_1_0_0_1_n_n = DotDims.plain 5000 96 64 from rfl]
  rw [MatRows.matmul_plain_apply]
  refine Finset.sum_congr rfl fun k _ => ?_
  rw [transpose_apply [1, 0] _ transposes_S64x96_p1_0_S96x64 (ix2 k q) (ix2 q k)
    (fun b => by match b with | ⟨0, _⟩ => rfl | ⟨1, _⟩ => rfl)]
  rfl

/-- The block written at block-row n, as the restriction of `lin4`: if the left block holds rows n·5000 … of X
    and the weight block holds all of W, then entry j of the block's product is `lin4 X W` at the entry of the array
    that j sits on. -/
theorem blk4_at (X : S50000x96.Idx → EReal) (W : S64x96.Idx → EReal)
    (x0 : Vec Ideal S5000x96 .f32) (x1 : Vec Ideal S64x96 .f32) (n : Nat)
    (h0 : ∀ (p : Fin 5000) (k : Fin 96) (r : Fin 50000), r.val = n * 5000 + p.val → x0 (ix2 p k) = X (ix2 r k))
    (h1 : ∀ (q : Fin 64) (k : Fin 96), x1 (ix2 q k) = W (ix2 q k))
    (j : S5000x64.Idx) (i : S50000x64.Idx)
    (hi0 : (i 0).val = n * 5000 + (j 0).val) (hi1 : (i 1).val = (j 1).val) :
    k4_pay1 (F := Ideal) x0 x1 j = lin4 X W i := by
  obtain ⟨p, q, rfl⟩ : ∃ (p : Fin 5000) (q : Fin 64), j = ix2 p q := ⟨j 0, j 1, eq_ix2 j⟩
  rw [pay4_at]
  unfold lin4 Cert.Gcn.linAt
  refine Finset.sum_congr rfl fun k _ => ?_
  rw [h0 p k ⟨(i 0).val, (i 0).isLt⟩ hi0, h1 q k]
  have hq : (⟨(i 1).val, (i 1).isLt⟩ : Fin 64) = q := Fin.ext hi1
  rw [hq]

/-- The block indices at each of the ten points: the left window's row block is the result window's and its column
    block is 0, the weight window sits at block (0, 0), and the result's row block is below 10. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 9
    ∧ win4_2.index t (1 : Fin 2) = 0 :=
  (by decide +kernel : ∀ t : Fin grid4.N, _)

/-- Every row block of the result is some point's. -/
theorem idx_onto4 : ∀ (q0 : Fin 10), ∃ t : Fin cfg4.N, win4_2.index t = ![q0.val, 0] :=
  (by decide +kernel : ∀ (q0 : Fin 10), ∃ t : Fin grid4.N, win4_2.index t = ![q0.val, 0])

/-- What point t writes back is block t of `lin4` of the two arrays as the region finds them. -/
theorem flushed4_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (lin4 (V c main_v71) (V c main_arg7)) := by
  show (cfg4.win 2).cut (grid4.coords t) ((dat4 (F := Ideal) V c).after 2 t) = _
  rw [after4_2]
  unfold out4_2
  rw [View.canon_unit_zero zeroOff4]
  simp only [View.ld_unit_zero (S := S5000x96) zeroOff4, View.ld_unit_zero (S := S64x96) zeroOff4]
  obtain ⟨e0, e1, e2, e3, e4, e5⟩ := idx_facts4 t
  funext j
  show k4_pay1 (F := Ideal) (iblk4 V c 0 t) (iblk4 V c 1 t) j
    = lin4 (V c main_v71) (V c main_arg7) (((cfg4.win 2).blk t).view.emb j)
  refine blk4_at (V c main_v71) (V c main_arg7) (iblk4 V c 0 t) (iblk4 V c 1 t) (win4_2.index t (0 : Fin 2))
    ?_ ?_ j _ ?_ ?_
  · intro p k r hr
    show V c main_v71 (((cfg4.win 0).blk t).view.emb (ix2 p k)) = V c main_v71 (ix2 r k)
    refine congrArg (V c main_v71) (funext fun a => Fin.ext ?_)
    match a with
    | ⟨0, _⟩ => show win4_0.index t (0 : Fin 2) * 5000 + 1 * p.val = r.val; omega
    | ⟨1, _⟩ => show win4_0.index t (1 : Fin 2) * 96 + 1 * k.val = k.val; omega
  · intro q k
    show V c main_arg7 (((cfg4.win 1).blk t).view.emb (ix2 q k)) = V c main_arg7 (ix2 q k)
    refine congrArg (V c main_arg7) (funext fun a => Fin.ext ?_)
    match a with
    | ⟨0, _⟩ => show win4_1.index t (0 : Fin 2) * 64 + 1 * q.val = q.val; omega
    | ⟨1, _⟩ => show win4_1.index t (1 : Fin 2) * 96 + 1 * k.val = k.val; omega
  · show win4_2.index t (0 : Fin 2) * 5000 + 1 * (j 0).val = win4_2.index t (0 : Fin 2) * 5000 + (j 0).val; omega
  · show win4_2.index t (1 : Fin 2) * 64 + 1 * (j 1).val = (j 1).val; omega

/-- An entry of the result is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v72).slice (win4_2.rect t)).set ↔ _
  rw [View.set_slice_whole, Rect.mem_set_unit]
  exact Iff.rfl

/-- The ten blocks cover the result: row r is in the block of point r / 5000. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- The result array after the region is `lin4` of the two arrays as the region finds them. -/
theorem final4 (V : (c : Dev nD) → (b : Ref sig .tc) → Buf (Elt Ideal) ((c : Thread nD τ).loc b)) (c : Dev nD) :
    (dat4 (F := Ideal) V c).arrAt 2 cfg4.N = lin4 (V c main_v71) (V c main_arg7) :=
  (dat4 (F := Ideal) V c).arrAt_eq_of_cover 2 (lin4 (V c main_v71) (V c main_arg7))
    (fun t _ => flushed4_eq V c t) cover4

/-- The result array after the region, at entry (p, q): row p of the second hidden layer's activations against row q of the weight. -/
theorem lin4_at (V : (c : Dev nD) → (b : Ref sig .tc) → Buf (Elt Ideal) ((c : Thread nD τ).loc b)) (c : Dev nD)
    (p : Fin 50000) (q : Fin 64) :
    (Gen.dat4 (F := Ideal) V c).arrAt 2 cfg4.N (ix2 p q) = Cert.Gcn.linAt (V c main_v71) (V c main_arg7) p q :=
  congrFun (final4 V c) (ix2 p q)

end Cert.KernelIdeal.Reg

end
-- ==== Proof.KRegBias5.lean ====
/-
  The kernel program's bias-add region, read at one entry of its output array.

  The region walks ten row blocks of 5000 rows of a [50000, 64] array.  At each block the body loads the block and
  the one-row bias, repeats the bias row down the block, adds, and stores the whole block back.  So the output array
  after the region holds, at entry (p, q), the input array's entry (p, q) plus the bias row's entry (0, q): the
  payload is read at one entry of a block (the shape casts are identities, the row broadcast reads row 0, the sum of
  vectors is the sum of entries); the block of the output at a point sits at the same rows as the block of the input
  and the bias row's block is the whole row, so what a point writes back is that point's block of ONE function of the
  input arrays; and the ten blocks cover every row (row r is in block r / 5000), so the array is that function.
-/
import proofs.«136577_j41128606826857_1_alg».proof.Proof.Gen.KernelIdeal.Frame
import proofs.«136577_j41128606826857_1_alg».proof.Proof.GcnSpec
import Idealize.ShloMosaic.Lib.ValueLayout
import Idealize.ShloMosaic.Lib.Pipeline.Value
import Idealize.ShloMosaic.Lib.ValueIdx

noncomputable section

namespace Cert.KernelIdeal.Reg

open Cert.KernelIdeal Cert.KernelIdeal.Gen Idealize.ShloMosaic Idealize.ShloMosaic.ValueIdx
open Idealize.ShloMosaic.TcCoe Idealize.SL.Sem
open Idealize.ShloMosaic.Pipeline (Dat)

/-- The offsets of a whole-buffer access are zero on both axes. -/
theorem bias5_hz : (![0, 0] : Fin 2 → Nat) = fun _ => 0 := funext fun a => by fin_cases a <;> rfl

/-! ## The body's payload at one entry -/

/-- Entry (r, q) of the payload: the block's entry (r, q) plus the bias row's entry (0, q). -/
theorem bias5_pay_at (x0 : Vec Ideal S5000x64 .f32) (x1 : Vec Ideal S1x64 .f32) (r : Fin 5000) (q : Fin 64) :
    k5_pay1 (F := Ideal) x0 x1 (ix2 r q) = x0 (ix2 r q) + x1 (ix2 (0 : Fin 1) q) := by
  show addf (F := Ideal) (shapeCast S5000x64 x0 shapeCasts_S5000x64_S5000x64)
      (broadcastTo S5000x64 (shapeCast S1x64 (shapeCast S1x64 x1 shapeCasts_S1x64_S1x64) shapeCasts_S1x64_S1x64)
        broadcasts_S1x64_S5000x64) (ix2 r q) = _
  rw [shapeCast_self, shapeCast_self, shapeCast_self, addf_apply, broadcastTo_1b_ab_apply]

/-- The same at any index of the block, the column written as the index's second coordinate. -/
theorem bias5_pay (x0 : Vec Ideal S5000x64 .f32) (x1 : Vec Ideal S1x64 .f32) (j : S5000x64.Idx) :
    k5_pay1 (F := Ideal) x0 x1 j = x0 j + x1 (ix2 (0 : Fin 1) (⟨(j 1).val, (j 1).isLt⟩ : Fin 64)) := by
  obtain ⟨r, q, rfl⟩ : ∃ (r : Fin 5000) (q : Fin 64), j = ix2 r q := ⟨j 0, j 1, eq_ix2 j⟩
  exact bias5_pay_at x0 x1 r q

/-! ## The output array as one function of the input arrays -/

/-- What the output array ends holding: entry i of the first array plus the second array's entry in row 0 of the same
    column. -/
abbrev bias5_G (a0 : S50000x64.Idx → EReal) (a1 : S1x64.Idx → EReal) : S50000x64.Idx → EReal :=
  fun i => a0 i + a1 (ix2 (0 : Fin 1) (⟨(i 1).val, (i 1).isLt⟩ : Fin 64))

/-- The index maps over the ten points: the first input's block moves with the output's, the bias row's block index
    is zero on both axes, and the output's block index is the point's row-block number with column block zero. -/
theorem bias5_idx_facts : ∀ t : Fin cfg5.N, win5_0.index t (0 : Fin 2) = win5_2.index t (0 : Fin 2) + 0
    ∧ win5_0.index t (1 : Fin 2) = win5_2.index t (1 : Fin 2) + 0
    ∧ win5_1.index t (0 : Fin 2) = 0
    ∧ win5_1.index t (1 : Fin 2) = 0
    ∧ win5_2.index t (0 : Fin 2) ≤ 9
    ∧ win5_2.index t (1 : Fin 2) = 0 :=
  (by decide +kernel : ∀ t : Fin grid5.N, _)

/-- Every row block is some point's. -/
theorem bias5_idx_onto : ∀ (q0 : Fin 10) (q1 : Fin 1), ∃ t : Fin cfg5.N, win5_2.index t = ![q0.val + 0, q1.val + 0] :=
  (by decide +kernel : ∀ (q0 : Fin 10) (q1 : Fin 1), ∃ t : Fin grid5.N, win5_2.index t = ![q0.val + 0, q1.val + 0])

/-- What point t writes back is block t of that function of the arrays as the region finds them. -/
theorem bias5_flushed (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (bias5_G (V c main_v85) (V c main_v86)) := by
  show (cfg5.win 2).cut (grid5.coords t) ((dat5 (F := Ideal) V c).after 2 t) = _
  rw [after5_2]
  unfold out5_2
  rw [View.canon_unit_zero bias5_hz]
  simp only [View.ld_unit_zero (S := S5000x64) bias5_hz, View.ld_unit_zero (S := S1x64) bias5_hz]
  obtain ⟨e0, e1, e2, e3, e4, e5⟩ := bias5_idx_facts t
  funext j
  refine (bias5_pay (iblk5 V c 0 t) (iblk5 V c 1 t) j).trans ?_
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (⟨(j 1).val, (j 1).isLt⟩ : Fin 64))
      = ix2 (0 : Fin 1) (⟨((((cfg5.win 2).blk t).view.emb j) 1).val, ((((cfg5.win 2).blk t).view.emb j) 1).isLt⟩ : Fin 64) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  show @HAdd.hAdd EReal EReal EReal instHAdd (V c main_v85 (((cfg5.win 0).blk t).view.emb j))
      (V c main_v86 (((cfg5.win 1).blk t).view.emb (ix2 (0 : Fin 1) (⟨(j 1).val, (j 1).isLt⟩ : Fin 64))))
    = @HAdd.hAdd EReal EReal EReal instHAdd (V c main_v85 (((cfg5.win 2).blk t).view.emb j))
      (V c main_v86 (ix2 (0 : Fin 1) (⟨((((cfg5.win 2).blk t).view.emb j) 1).val, ((((cfg5.win 2).blk t).view.emb j) 1).isLt⟩ : Fin 64)))
  rw [h0, h1]

/-- An index of the array is in point t's block iff each coordinate is in the block's range on its axis. -/
theorem bias5_mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v87).slice (win5_2.rect t)).set ↔ _
  rw [View.set_slice_whole, Rect.mem_set_unit]
  exact Iff.rfl

/-- Every index of the array is in some point's block: row r is in block r / 5000. -/
theorem bias5_covered (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := bias5_idx_onto ⟨(i 0).val / 5000, by omega⟩ ⟨(i 1).val / 64, by omega⟩
  have q0 : win5_2.index t (0 : Fin 2) = (i 0).val / 5000 + 0 := congrFun ht 0
  have q1 : win5_2.index t (1 : Fin 2) = (i 1).val / 64 + 0 := congrFun ht 1
  refine ⟨t, flush5_2 t, ?_⟩
  rw [bias5_mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after the region is that function of the input arrays. -/
theorem bias5_final (V : (c : Dev nD) → (b : Ref sig .tc) → Buf (Elt Ideal) ((c : Thread nD τ).loc b)) (c : Dev nD) :
    (dat5 (F := Ideal) V c).arrAt 2 cfg5.N = bias5_G (V c main_v85) (V c main_v86) :=
  (dat5 (F := Ideal) V c).arrAt_eq_of_cover 2 _ (fun t _ => bias5_flushed V c t) bias5_covered

/-- The output array after the region at entry (p, q): the input's entry (p, q) plus the bias row's entry (0, q).
    (The sum is written with its type, the extended reals, spelt out: the two summands' element types are read off
    two different buffers and only agree after unfolding.) -/
theorem bias5_at (V : (c : Dev nD) → (b : Ref sig .tc) → Buf (Elt Ideal) ((c : Thread nD τ).loc b)) (c : Dev nD) (p : Fin 50000) (q : Fin 64) :
    (Gen.dat5 (F := Ideal) V c).arrAt 2 cfg5.N (ix2 p q)
      = @HAdd.hAdd EReal EReal EReal instHAdd (V c main_v85 (ix2 p q)) (V c main_v86 (ix2 (0 : Fin 1) q)) :=
  congrFun (bias5_final V c) (ix2 p q)

end Cert.KernelIdeal.Reg

end
-- ==== Proof.KLayer3.lean ====
/-
  The third layer, and the result.

  A launch multiplies the second hidden layer by the transposed third weight matrix where the reference uses one host
  product; the rows are gathered, scaled and added along the edges by the same host operations; the last launch adds
  the output bias row where the reference adds the bias vector broadcast over the rows.  What the last launch leaves in
  its output array is therefore the reference's result, as a function of the seventeen arguments.
-/
import proofs.«136577_j41128606826857_1_alg».proof.Proof.Gen.KernelIdeal.Frame
import proofs.«136577_j41128606826857_1_alg».proof.Proof.Gen.ReferenceIdeal.Read
import proofs.«136577_j41128606826857_1_alg».proof.Proof.GcnSpec
import proofs.«136577_j41128606826857_1_alg».proof.Proof.LibHostLayout
import proofs.«136577_j41128606826857_1_alg».proof.Proof.KCarry
import proofs.«136577_j41128606826857_1_alg».proof.Proof.KPre
import proofs.«136577_j41128606826857_1_alg».proof.Proof.KLayer1
import proofs.«136577_j41128606826857_1_alg».proof.Proof.KLayer2
import proofs.«136577_j41128606826857_1_alg».proof.Proof.RefRead
import proofs.«136577_j41128606826857_1_alg».proof.Proof.KRegLin4
import proofs.«136577_j41128606826857_1_alg».proof.Proof.KRegBias5

noncomputable section

namespace Cert.KernelIdeal.Layers

open Cert.KernelIdeal Cert.KernelIdeal.Gen Cert.KernelIdeal.Carry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The second hidden layer times the transposed third weights. -/
theorem xw3_eq : W10 m ρ c (Proc.devRef .tc main_v72) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W10_arr m ρ c 2).trans ?_
  funext i
  obtain ⟨p, q, rfl⟩ : ∃ (p : Fin 50000) (q : Fin 64), i = ix2 p q := ⟨i 0, i 1, eq_ix2 i⟩
  refine (Reg.lin4_at (V9 m ρ) c p q).trans ?_
  rw [Cert.Gcn.RefRead.lin3_at]
  show Cert.Gcn.linAt (W9 m ρ c (Proc.devRef .tc main_v71)) (W9 m ρ c (Proc.devRef .tc main_arg7)) p q = _
  rw [h2_eq, from9 m ρ c main_arg7 (by decide) (by decide) (by decide) (by decide) (by decide) (by decide), at3_launch m ρ c main_arg7 (by decide) (by decide) (by decide)]

set_option maxRecDepth 100000 in
set_option maxHeartbeats 2000000 in
/-- The third layer's rows gathered along the edges, scaled and added up at the targets. -/
theorem agg3_eq : W11 m ρ c (Proc.devRef .tc main_v85) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps5 (W10 m ρ c) (Proc.devRef .tc main_v85) = _
  generalize hV : W10 m ρ c = V
  after_results
  subst hV
  rw [xw3_eq, from10 m ρ c main_v31 (by decide) (by decide) (by decide) (by decide) (by decide) (by decide) (by decide), norm_eq, from10 m ρ c main_v3 (by decide) (by decide) (by decide) (by decide) (by decide) (by decide) (by decide), row_eq, from10 m ρ c main_v6 (by decide) (by decide) (by decide) (by decide) (by decide) (by decide) (by decide), col_eq]
  rfl

/-- The output bias, as a row. -/
theorem b3_row (q : Fin 64) : W11 m ρ c (Proc.devRef .tc main_v86) (ix2 (0 : Fin 1) q) = (m ((c : Thread nD τ).loc main_arg8)) (ix1 q) := by
  have e : W11 m ρ c (Proc.devRef .tc main_v86) = shapeCast S1x64 (W10 m ρ c (Proc.devRef .tc main_arg8)) shapeCasts_S64_S1x64 := by
    show StableHlo.after hostOps5 (W10 m ρ c) (Proc.devRef .tc main_v86) = _
    generalize hV : W10 m ρ c = V
    after_results
    subst hV
    rfl
  rw [e, Cert.HostLayout.reshape_rowvec_apply, from10 m ρ c main_arg8 (by decide) (by decide) (by decide) (by decide) (by decide) (by decide) (by decide), at3_launch m ρ c main_arg8 (by decide) (by decide) (by decide)]

/-- The result: the third aggregation plus the output bias. -/
theorem out_eq : W12 m ρ c (Proc.devRef .tc main_v87) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W12_arr m ρ c 2).trans ?_
  funext i
  obtain ⟨p, q, rfl⟩ : ∃ (p : Fin 50000) (q : Fin 64), i = ix2 p q := ⟨i 0, i 1, eq_ix2 i⟩
  refine (Reg.bias5_at (V11 m ρ) c p q).trans ?_
  rw [Cert.Gcn.RefRead.bias_at]
  show @HAdd.hAdd EReal EReal EReal instHAdd (W11 m ρ c (Proc.devRef .tc main_v85) (ix2 p q)) (W11 m ρ c (Proc.devRef .tc main_v86) (ix2 (0 : Fin 1) q)) = _
  rw [agg3_eq, b3_row]

end Cert.KernelIdeal.Layers

end
-- ==== Proof.lean ====
/-
  Three graph-convolution layers: the kernel program against its reference, on the extended reals.

  Both programs take node features, an edge list with edge weights, three weight matrices with biases, and the stored
  statistics of two normalisation layers.  Each layer multiplies the features by a transposed weight matrix, then for
  every edge (and one self loop per node) gathers the source node's row, scales it by the edge weight divided by the
  square roots of the weighted in-degrees of the edge's two endpoints, and adds it into the target node's row; then it
  adds the bias, and the two hidden layers standardise each column with the stored mean and variance, scale, shift and
  clamp at zero.  The kernel program does the products and the entrywise chains in launches over blocks of 5000 rows and
  leaves the gathers and the scatter-adds to host operations; the reference does everything with host operations.

  On the extended reals the two are the same function of the arguments.  A product in a launch accumulates into a zero
  array the same sum over the shared axis that the host's product takes, the change of float format on the way in being
  the identity; the entrywise chains perform the same additions, subtractions, reciprocal square roots, products and
  maxima in the same order, on the same literals; the operations between the launches are literally the reference's.  So
  the kernel program's buffers hold, at the boundary after each segment, exactly what the matching stage of the
  reference holds (Proof/KPre.lean, Proof/KLayer1.lean, Proof/KLayer2.lean, Proof/KLayer3.lean), and the last launch's
  output array is the reference's result.  No law of arithmetic beyond the re-indexing of a finite sum is used, so the
  precondition (every float input finite) is never opened.

  The three programs run, fault-free, and leave their arguments unchanged: the two kernel programs by their generated
  frame proofs, the reference by its generated run.  The kernel program's idealization rewrote no operation, so there is
  nothing to preserve.
-/
import proofs.«136577_j41128606826857_1_alg».proof.Defs
import proofs.«136577_j41128606826857_1_alg».proof.Proof.Gen.Kernel
import proofs.«136577_j41128606826857_1_alg».proof.Proof.Gen.Kernel.Skeleton
import proofs.«136577_j41128606826857_1_alg».proof.Proof.Gen.Kernel.Launch
import proofs.«136577_j41128606826857_1_alg».proof.Proof.Gen.Kernel.Points
import proofs.«136577_j41128606826857_1_alg».proof.Proof.Gen.Kernel.Frame
import proofs.«136577_j41128606826857_1_alg».proof.Proof.Gen.KernelIdeal
import proofs.«136577_j41128606826857_1_alg».proof.Proof.Gen.KernelIdeal.Skeleton
import proofs.«136577_j41128606826857_1_alg».proof.Proof.Gen.KernelIdeal.Launch
import proofs.«136577_j41128606826857_1_alg».proof.Proof.Gen.KernelIdeal.Points
import proofs.«136577_j41128606826857_1_alg».proof.Proof.Gen.KernelIdeal.Frame
import proofs.«136577_j41128606826857_1_alg».proof.Proof.Gen.ReferenceIdeal
import proofs.«136577_j41128606826857_1_alg».proof.Proof.Gen.Pre_finite_inputs
import proofs.«136577_j41128606826857_1_alg».proof.Proof.Gen.ReferenceIdeal.Run
import proofs.«136577_j41128606826857_1_alg».proof.Proof.Gen.ReferenceIdeal.Read
import proofs.«136577_j41128606826857_1_alg».proof.Proof.KRun
import proofs.«136577_j41128606826857_1_alg».proof.Proof.KLayer3
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result array: the reference's
    last stage of the arguments.  The kernel program's run ends with its result array at what the last launch leaves,
    which is that stage; the reference's run ends at its composed term, which is that stage of its own arguments, and
    those are the kernel program's. -/
theorem algebraic : Cert.algebraic_KernelIdeal_ReferenceIdeal := by
  intro m ρ m' ρ' _ hagree
  refine ⟨fun c => Cert.ReferenceIdeal.Read.val_main_v117 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Layers.out_eq m ρ c), (h c).2⟩) (Cert.KernelIdeal.ValueRun.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v117_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
